-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_arg7 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x64 .f32) (main_arg6 : FVec F S64 .f32) (main_arg7 : FVec F S128x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S600000x64 : Shape := ⟨2, ![600000, 64]⟩
abbrev S1x64 : Shape := ⟨2, ![1, 64]⟩

abbrev nBuf : Space → Nat
  | .hbm => 59
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S50000, .f32⟩
  | .hbm, ⟨16, _⟩ => ⟨S600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .bf16⟩
  | .hbm, ⟨35, _⟩ => ⟨S600000x128, .f32⟩
  | .hbm, ⟨36, _⟩ => ⟨S_, .f32⟩
  | .hbm, ⟨37, _⟩ => ⟨S50000x128, .f32⟩
  | .hbm, ⟨38, _⟩ => ⟨S600000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x64, .bf16⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x64, .bf16⟩
  | .hbm, ⟨52, _⟩ => ⟨S600000x64, .f32⟩
  | .hbm, ⟨53, _⟩ => ⟨S_, .f32⟩
  | .hbm, ⟨54, _⟩ => ⟨S50000x64, .f32⟩
  | .hbm, ⟨55, _⟩ => ⟨S600000x1, .i32⟩
  | .hbm, ⟨56, _⟩ => ⟨S50000x64, .f32⟩
  | .hbm, ⟨57, _⟩ => ⟨S1x64, .f32⟩
  | .hbm, ⟨58, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S128x64, .f32⟩
  | .local _ .vmem, ⟨10, _⟩ => ⟨S2000x128, .f32⟩
  | .local _ .vmem, ⟨11, _⟩ => ⟨S2000x128, .f32⟩
  | .local _ .vmem, ⟨12, _⟩ => ⟨S2000x64, .bf16⟩
  | .local _ .vmem, ⟨13, _⟩ => ⟨S2000x64, .bf16⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S50000x64.size a
  hwx0_8 : ∀ i : grid0.Coords, EltTy.bits .bf16 = 32 ∨ (Rect.block (s := S50000x64) S2000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26_1) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v37) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S50000, .f32⟩
  | .hbm, ⟨29, _⟩ => ⟨S600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S600000, .f32⟩
  | .hbm, ⟨61, _⟩ => ⟨S_, .f32⟩
  | .hbm, ⟨62, _⟩ => ⟨S50000, .f32⟩
  | .hbm, ⟨63, _⟩ => ⟨S600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run, with its result named.

  @main is four segments: the host operations before the first kernel region, that region (layer 1: it writes the
  hidden array h and its projection p), the host operations between the regions (the gather and the accumulating
  scatter of p), and the second region (layer 2: it writes the result). The contents of the TensorCore's buffers at
  each segment boundary are a fold from the launch memory (`W0 … W4`). Every weakly fair execution terminates, and
  in its final state the result buffer holds what the fold leaves there, `W4 … main_v39`, and every argument buffer
  what it held at launch.
-/
import proofs.«107244_j42812234006861_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the four segments; the last thread state is read against the final state at every unscoped
    buffer, the result's among them. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Gen

end
-- ==== Proof.LibKeepdims.lean ====
import Idealize.ShloMosaic.Lib.Pipeline.Value
import Idealize.ShloMosaic.Lib.ValueIdx
import Idealize.ShloMosaic.Lib.ValueLayout
import Idealize.ShloMosaic.PureOps.Ideal.Laws

/-!
# Keepdims columns, a row sum and a plain matrix product, read at an index

General facts about layout operations on small ranks, in the style of the library's
`shapeCast_a_1a_apply` and `broadcastTo_1b_ab_apply`:

* an `[a]` vector cast to the column `[a, 1]` reads, at `(i, u)`, the vector at `i`;
* a column `[a, 1]` broadcast to `[a, b]` reads, at `(p, c)`, the column at `(p, 0)`;
* over the extended reals, a sum over the last axis of an `[a, b]` array into `[a]`, read at `i`, is the
  sum over `k < b` of the array at `(i, k)`.
-/

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KPayload.lean ====
/-
  The two kernel bodies' stored values, read at an index of the block, over the extended reals.

  Layer 1 (rows p of a 2000-row block, columns q): the stored hidden value is
      max( Σ_k (agg[p,k] · inv[p]) · Wl[k,q]  +  Σ_k x[p,k] · Wr[k,q]  +  b[q],  0 )
  and the stored projection is  Σ_k h[p,k] · W2l[k,j].  Layer 2 stores
      (Σ_k h[p,k] · Wr[k,j] + b[j]) + agg2[p,j] · inv[p].
  A product on the matrix unit into a zero accumulator is the sum over the contracted axis; a change of float
  format is the identity; the column inv[·] and the bias row are broadcast along the other axis.
-/
import proofs.«107244_j42812234006861_2_alg».proof.Proof.Gen.KernelIdeal.Skeleton
import proofs.«107244_j42812234006861_2_alg».proof.Proof.LibKeepdims
import proofs.«107244_j42812234006861_2_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

theorem dot_S2000x128_S128x128_S2000x128_1_0_0_1_n_n_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dot_S2000x128_S128x128_S2000x128_1_0_0_1_n_n_l1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem dot_S2000x128_S128x128_S2000x128_1_0_0_1_n_n_r0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem dot_S2000x128_S128x128_S2000x128_1_0_0_1_n_n_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem dot_S2000x128_S128x64_S2000x64_1_0_0_1_n_n_l0 (i : S2000x64.Idx) (q : dot_S2000x128_S128x64_S2000x64_1_0_0_1_n_n.contr.Idx) : (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem dot_S2000x128_S128x64_S2000x64_1_0_0_1_n_n_l1 (i : S2000x64.Idx) (q : dot_S2000x128_S128x64_S2000x64_1_0_0_1_n_n.contr.Idx) : (dot_S2000x128_S128x64_S2000x64_1_0_0_1_n_n.lhsIdx i q 1).val = (q ⟨0, by decide⟩).val :=
  dot_S2000x128_S128x64_S2000x64_1_0_0_1_n_n.lhsIdx_val_of_single rfl i q
theorem dot_S2000x128_S128x64_S2000x64_1_0_0_1_n_n_r0 (i : S2000x64.Idx) (q : dot_S2000x128_S128x64_S2000x64_1_0_0_1_n_n.contr.Idx) : (dot_S2000x128_S128x64_S2000x64_1_0_0_1_n_n.rhsIdx i q 0).val = (q ⟨0, by decide⟩).val :=
  dot_S2000x128_S128x64_S2000x64_1_0_0_1_n_n.rhsIdx_val_of_single rfl i q
theorem dot_S2000x128_S128x64_S2000x64_1_0_0_1_n_n_r1 (i : S2000x64.Idx) (q : dot_S2000x128_S128x64_S2000x64_1_0_0_1_n_n.contr.Idx) : (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- A [2000,128]·[128,128] product into zeros, at (p, q). -/
theorem mm_sq {φ₁ φ₂ : FTy} (l : FVec Ideal S2000x128 φ₁) (w : FVec Ideal S128x128 φ₂) (p : Fin 2000) (q : Fin 128) :
    matmul dot_S2000x128_S128x128_S2000x128_1_0_0_1_n_n none l w (constant S2000x128 .f32 0x00000000#32) (ix2 p q)
      = ∑ k : Fin 128, l (ix2 p k) * w (ix2 k q) :=
  (Ideal.matmul_constant_zero_apply dot_S2000x128_S128x128_S2000x128_1_0_0_1_n_n none l w (ix2 p q)).trans
    (Cert.Gcn.Dense.sum_contr_eq_prod dot_S2000x128_S128x128_S2000x128_1_0_0_1_n_n rfl rfl dot_S2000x128_S128x128_S2000x128_1_0_0_1_n_n_l0 dot_S2000x128_S128x128_S2000x128_1_0_0_1_n_n_l1 dot_S2000x128_S128x128_S2000x128_1_0_0_1_n_n_r0 dot_S2000x128_S128x128_S2000x128_1_0_0_1_n_n_r1 l w (ix2 p q))

/-- A [2000,128]·[128,64] product into zeros, at (p, j). -/
theorem mm_out {φ₁ φ₂ : FTy} (l : FVec Ideal S2000x128 φ₁) (w : FVec Ideal S128x64 φ₂) (p : Fin 2000) (j : Fin 64) :
    matmul dot_S2000x128_S128x64_S2000x64_1_0_0_1_n_n none l w (constant S2000x64 .f32 0x00000000#32) (ix2 p j)
      = ∑ k : Fin 128, l (ix2 p k) * w (ix2 k j) :=
  (Ideal.matmul_constant_zero_apply dot_S2000x128_S128x64_S2000x64_1_0_0_1_n_n none l w (ix2 p j)).trans
    (Cert.Gcn.Dense.sum_contr_eq_prod dot_S2000x128_S128x64_S2000x64_1_0_0_1_n_n rfl rfl dot_S2000x128_S128x64_S2000x64_1_0_0_1_n_n_l0 dot_S2000x128_S128x64_S2000x64_1_0_0_1_n_n_l1 dot_S2000x128_S128x64_S2000x64_1_0_0_1_n_n_r0 dot_S2000x128_S128x64_S2000x64_1_0_0_1_n_n_r1 l w (ix2 p j))

/-- Layer 1's hidden value at (p, q). -/
theorem pay1_apply (v0 : Vec Ideal S2000x128 .f32) (v2 : Vec Ideal S2000x1 .f32) (v7 : Vec Ideal S2000x128 .f32)
    (v9 v11 : Vec Ideal S128x128 .f32) (v16 : Vec Ideal S1x128 .f32) (p : Fin 2000) (q : Fin 128) :
    k0_pay1 (F := Ideal) v0 v2 v7 v9 v11 v16 (ix2 p q)
      = max (((∑ k : Fin 128, (v0 (ix2 p k) * v2 (ix2 p (0 : Fin 1))) * v9 (ix2 k q))
          + (∑ k : Fin 128, v7 (ix2 p k) * v11 (ix2 k q))) + v16 (ix2 (0 : Fin 1) q)) 0 := by
  unfold k0_pay1
  simp only [maximumf_apply, addf_apply, mm_sq, truncf_apply, mulf_apply, shapeCast_self, broadcast_apply,
    Cert.Keepdims.broadcastTo_a1_ab_apply, broadcastTo_1b_ab_apply]
  rw [Ideal.ofBits_def, Ideal.ofBits_zero_f32]

/-- Layer 1's projection at (p, j), over its hidden value. -/
theorem pay2_apply (v0 : Vec Ideal S2000x128 .f32) (v2 : Vec Ideal S2000x1 .f32) (v7 : Vec Ideal S2000x128 .f32)
    (v9 v11 : Vec Ideal S128x128 .f32) (v16 : Vec Ideal S1x128 .f32) (v24 : Vec Ideal S128x64 .f32) (p : Fin 2000) (j : Fin 64) :
    k0_pay2 (F := Ideal) v0 v2 v7 v9 v11 v16 v24 (ix2 p j)
      = ∑ k : Fin 128, k0_pay1 (F := Ideal) v0 v2 v7 v9 v11 v16 (ix2 p k) * v24 (ix2 k j) := by
  unfold k0_pay2
  simp only [mm_out, truncf_apply]

/-- Layer 2's stored value at (p, j). -/
theorem pay_out_apply (v0 : Vec Ideal S2000x64 .f32) (v2 : Vec Ideal S2000x1 .f32) (v6 : Vec Ideal S2000x128 .f32)
    (v9 : Vec Ideal S128x64 .f32) (v12 : Vec Ideal S1x64 .f32) (p : Fin 2000) (j : Fin 64) :
    k1_pay1 (F := Ideal) v0 v2 v6 v9 v12 (ix2 p j)
      = ((∑ k : Fin 128, v6 (ix2 p k) * v9 (ix2 k j)) + v12 (ix2 (0 : Fin 1) j)) + v0 (ix2 p j) * v2 (ix2 p (0 : Fin 1)) := by
  unfold k1_pay1
  simp only [addf_apply, mm_out, truncf_apply, mulf_apply, shapeCast_self,
    Cert.Keepdims.broadcastTo_a1_ab_apply, broadcastTo_1b_ab_apply]

end Cert.KernelIdeal.Pay

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.LibGraphMean.lean ====
/-
  The mean of gathered rows commutes with a linear map, on the extended reals.

  A graph layer gathers rows of a node array `X` along the edges' sources, adds the gathered rows into the rows
  their edges point to, and divides each row by a per-row divisor. Row `r` of the result is
  `(Σ_{e lands on r} X[src e, ·]) / d r`. When `X` and a weight matrix `B` hold real numbers and `d r` is a
  non-zero real, projecting afterwards,  `Σ_k ((Σ_e X[src e, k]) / d r) · B[q, k]`,  is the same number as
  projecting first,  `(Σ_e Σ_k X[src e, k] · B[q, k]) / d r`:  both are finite sums of products of reals, and the
  law is the exchange of two finite sums with the factor `1 / d r` and `B[q, k]` moved across them.
  The divisor of the layer is the in-degree clamped below by one, `max (#{e lands on r}) 1`: a real, at least one.
-/
import Idealize.ShloMosaic.PureOps.Ideal
import Idealize.ShloMosaic.PureOps.Ideal.Laws
import Idealize.ShloMosaic.Lib.ValueIdx
import proofs.«107244_j42812234006861_2_alg».proof.Proof.LibScatterGather

noncomputable section

namespace Cert.GraphMean

open Idealize.ShloMosaic Idealize.ShloMosaic.ValueIdx Cert.ScatterGather

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {N M C w : Nat}

/-- The update rows that land on operand row `r`: those whose index, read signed, is `r`. -/
def landing (idx : IVec ⟨2, ![M, 1]⟩ w) (r : Fin N) : Finset (Fin M) :=
  Finset.univ.filter fun e => (idx (ix2 e (0 : Fin 1))).toInt = (r.val : Int)

/-- An accumulating row scatter into zeros, read at `(r, k)`: the sum of column `k` of the update rows that land
    on row `r`. -/
theorem scatter_rows_apply (wf : ScatterDims.WF ⟨2, ![N, C]⟩ ⟨2, ![M, 1]⟩ ⟨2, ![M, C]⟩ [1] [0] [0] 1)
    (idx : IVec ⟨2, ![M, 1]⟩ w) (u : (⟨2, ![M, C]⟩ : Shape).Idx → EReal) (r : Fin N) (k : Fin C) :
    Ideal.hostScatterAdd (rowsScatter N M C wf) (fun _ => 0) idx u (ix2 r k) = ∑ e ∈ landing idx r, u (ix2 e k) := by
  unfold Ideal.hostScatterAdd
  rw [zero_add]
  have key : ∀ j : (⟨2, ![M, C]⟩ : Shape).Idx, (rowsScatter N M C wf).resultIdx? j idx = some (ix2 r k) →
      (idx (ix2 (j 0) (0 : Fin 1))).toInt = (r.val : Int) ∧ ix2 (j 0) k = j := by
    intro j hj
    have h := (rowsScatter_resultIdx?_eq_some_iff wf j idx (ix2 r k)).mp hj
    refine ⟨h.1, ?_⟩
    funext a
    match a with
    | ⟨0, _⟩ => rfl
    | ⟨1, _⟩ => exact (Fin.ext h.2).symm
  refine Finset.sum_nbij' (fun j => j 0) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowsScatter_resultIdx?_eq_some_iff wf (ix2 e k) idx (ix2 r k)).mpr ⟨(Finset.mem_filter.mp he).2, rfl⟩⟩
  · intro j hj
    exact (key j (Finset.mem_filter.mp hj).2).2
  · intro e _
    rfl
  · intro j hj
    exact congrArg u (key j (Finset.mem_filter.mp hj).2).2.symm

/-- An accumulating scatter of ones into a vector of zeros, read at `r`: the number of updates that land on `r`. -/
theorem scatter_count_apply (wf : ScatterDims.WF ⟨1, ![N]⟩ ⟨2, ![M, 1]⟩ ⟨1, ![M]⟩ [] [0] [0] 1)
    (idx : IVec ⟨2, ![M, 1]⟩ w) (r : Fin N) :
    Ideal.hostScatterAdd (flatScatter N M wf) (fun _ => 0) idx (fun _ => 1) (ix1 r)
      = (((landing idx r).card : ℝ) : EReal) := by
  unfold Ideal.hostScatterAdd
  rw [zero_add]
  have e : ∑ j ∈ Finset.univ.filter (fun j : (⟨1, ![M]⟩ : Shape).Idx => (flatScatter N M wf).resultIdx? j idx = some (ix1 r)), (1 : EReal)
      = ∑ _e ∈ landing idx r, (1 : EReal) := by
    refine Finset.sum_nbij' (fun j => j 0) (fun e => ix1 e) ?_ ?_ ?_ ?_ ?_
    · intro j hj
      exact Finset.mem_filter.mpr ⟨Finset.mem_univ _,
        (flatScatter_resultIdx?_eq_some_iff wf j idx (ix1 r)).mp (Finset.mem_filter.mp hj).2⟩
    · intro e he
      exact Finset.mem_filter.mpr ⟨Finset.mem_univ _,
        (flatScatter_resultIdx?_eq_some_iff wf (ix1 e) idx (ix1 r)).mpr (Finset.mem_filter.mp he).2⟩
    · intro j _
      exact (eq_ix1 j).symm
    · intro e _
      rfl
    · intro j _
      rfl
  rw [e, Finset.sum_const, EReal.nsmul_eq_mul, mul_one]
  rfl

/-- The same count, for the host's accumulating scatter of a vector of ones into a vector of zeros, whatever the
    names its record, its operand and its updates go by. -/
theorem host_count_apply (d : ScatterDims ⟨1, ![N]⟩ ⟨2, ![M, 1]⟩ ⟨1, ![M]⟩)
    (wf : ScatterDims.WF ⟨1, ![N]⟩ ⟨2, ![M, 1]⟩ ⟨1, ![M]⟩ [] [0] [0] 1) (hd : d = flatScatter N M wf)
    (Z : FVec Ideal ⟨1, ![N]⟩ .f32) (hZ : Z = fun _ => 0) (idx : IVec ⟨2, ![M, 1]⟩ w)
    (U : FVec Ideal ⟨1, ![M]⟩ .f32) (hU : U = fun _ => 1) (r : Fin N) :
    Host.scatterAdd (F := Ideal) d Z idx U (ix1 r) = (((landing idx r).card : ℝ) : EReal) := by
  subst hd hZ hU
  exact scatter_count_apply wf idx r

/-- The in-degree of row `r` clamped below by one: the layer's divisor. -/
def degree (idx : IVec ⟨2, ![M, 1]⟩ w) (r : Fin N) : ℝ := max ((landing idx r).card : ℝ) 1

theorem degree_ne_zero (idx : IVec ⟨2, ![M, 1]⟩ w) (r : Fin N) : degree idx r ≠ 0 :=
  (lt_of_lt_of_le one_pos (le_max_right _ _)).ne'

/-- The maximum of a count and one, on the extended reals, is that real. -/
theorem max_count_one (idx : IVec ⟨2, ![M, 1]⟩ w) (r : Fin N) :
    max (((landing idx r).card : ℝ) : EReal) 1 = (degree idx r : EReal) := by
  unfold degree
  rw [← EReal.coe_one]
  exact (EReal.coe_strictMono.monotone.map_max).symm

/-- The exchange of sums over the reals: scaling and projecting the sum of rows is summing the projected rows and
    scaling. -/
theorem real_law {E K : Type} [Fintype K] (s : Finset E) (a : E → K → ℝ) (b : K → ℝ) (c : ℝ) :
    ∑ k : K, ((∑ e ∈ s, a e k) * c) * b k = (∑ e ∈ s, ∑ k : K, a e k * b k) * c := by
  simp only [Finset.sum_mul]
  rw [Finset.sum_comm]
  exact Finset.sum_congr rfl fun e _ => Finset.sum_congr rfl fun k _ => by ring

/-- THE LAW. `X = ↑a` and `B = ↑b` real, the divisor of row `r` the non-zero real `d r` in every column, the
    scatter's operand zero: the mean of the gathered rows of `X`, projected by `B`, is the mean of the gathered rows
    of the projected `X`. -/
theorem mean_project (hN : 0 < N)
    (wfg : GatherDims.WF ⟨2, ![N, C]⟩ ⟨2, ![M, 1]⟩ ⟨2, ![M, C]⟩ [1] [0] [] [0] [] 1 ![1, C])
    (wfs : ScatterDims.WF ⟨2, ![N, C]⟩ ⟨2, ![M, 1]⟩ ⟨2, ![M, C]⟩ [1] [0] [0] 1)
    (Z : (⟨2, ![N, C]⟩ : Shape).Idx → EReal) (hZ : Z = fun _ => 0)
    (I1 I2 : IVec ⟨2, ![M, 1]⟩ w)
    (Dn : (⟨2, ![N, C]⟩ : Shape).Idx → EReal) (d : Fin N → ℝ) (hd : ∀ r, d r ≠ 0)
    (hDn : ∀ r k, Dn (ix2 r k) = (d r : EReal))
    (a : (⟨2, ![N, C]⟩ : Shape).Idx → ℝ) (b : (⟨2, ![C, C]⟩ : Shape).Idx → ℝ) (r : Fin N) (q : Fin C) :
    ∑ k : Fin C, Ideal.div (Ideal.hostScatterAdd (rowsScatter N M C wfs) Z I2
        (Host.gather (rowsDims N M C wfg) (fun i => (a i : EReal)) I1) (ix2 r k)) (Dn (ix2 r k)) * (b (ix2 q k) : EReal)
      = Ideal.div (Ideal.hostScatterAdd (rowsScatter N M C wfs) Z I2
        (Host.gather (rowsDims N M C wfg) (fun i => ∑ k : Fin C, (a (ix2 (i 0) k) : EReal) * (b (ix2 (i 1) k) : EReal)) I1)
          (ix2 r q)) (Dn (ix2 r q)) := by
  subst hZ
  simp only [scatter_rows_apply, hDn, Ideal.div_coe (hd r), gather_rows_apply hN wfg]
  simp only [← EReal.coe_mul, ← coe_sum]
  exact congrArg _ (real_law (landing I2 r) (fun e k => a (ix2 (clampRow N hN I1 e) k)) (fun k => b (ix2 q k)) (1 / d r))

end Cert.GraphMean

end
-- ==== Proof.Spec.lean ====
/-
  A two-layer graph network with mean aggregation, as two functions of its arguments over the extended reals.

  Notation. `I1` holds one row index per edge (the edge's source, as the row gather reads it: signed, clamped
  into the node range), `I2` one row index per edge (the edge's target, as the accumulating scatter reads it:
  signed, dropped when outside the node range). For a node array `X`,
      agg X r k = Σ_{e lands on r} X[src e, k]
  is the sum of the source rows of the edges that point to node `r`, and `degree I2 r = max (#{e lands on r}) 1`
  the clamped in-degree, a real number ≥ 1.

  One layer is  mean(X)·Wl + b + X·Wr  with  mean(X)[r,·] = agg X r · / degree r;  the first layer is followed
  by max(·, 0).

  * `outK`: the arrangement that multiplies by the reciprocal `1 / degree r`, adds the two products of the first
    layer before the bias, and in the second layer projects FIRST (p = h·W2l, 64 columns) and aggregates the
    projected rows:  out = (h·W2r + b2) + agg p · (1/degree).
  * `outR`: the textbook arrangement, dividing the aggregated rows by the degree and projecting afterwards:
    out = ((agg h / degree)·W2l + b2) + h·W2r.
-/
import Idealize.ShloMosaic.PureOps.Ideal
import Idealize.ShloMosaic.Lib.ValueIdx
import proofs.«107244_j42812234006861_2_alg».proof.Proof.LibScatterGather
import proofs.«107244_j42812234006861_2_alg».proof.Proof.LibGraphMean

noncomputable section

namespace Cert.Sage

open Idealize.ShloMosaic Idealize.ShloMosaic.ValueIdx Cert.ScatterGather Cert.GraphMean

/-- One row index per edge, carried as a column. -/
abbrev EdgeIdx : Type := IVec ⟨2, ![600000, 1]⟩ 32

theorem nodes_pos : 0 < 50000 := by norm_num

variable (I1 I2 : EdgeIdx)

/-- The source row of edge `e`. -/
def src (e : Fin 600000) : Fin 50000 := clampRow 50000 nodes_pos I1 e

/-- `agg X r k`: the sum over the edges landing on node `r` of column `k` of their source rows of `X`. -/
def agg {C : Nat} (X : Fin 50000 → Fin C → EReal) (r : Fin 50000) (k : Fin C) : EReal :=
  ∑ e ∈ landing I2 r, X (src I1 e) k

/-- The reciprocal of the clamped in-degree of node `r`, as the quotient `1 / degree`. -/
def invd (r : Fin 50000) : EReal := Ideal.div 1 ((degree I2 r : ℝ) : EReal)

variable (x : Fin 50000 → Fin 128 → EReal) (w1l : Fin 128 → Fin 128 → EReal) (b1 : Fin 128 → EReal)
  (w1r : Fin 128 → Fin 128 → EReal) (w2l : Fin 128 → Fin 64 → EReal) (b2 : Fin 64 → EReal)
  (w2r : Fin 128 → Fin 64 → EReal)

/-- First layer, reciprocal arrangement: max((agg x · 1/deg)·W1l + x·W1r + b1, 0). -/
def hK (r : Fin 50000) (k : Fin 128) : EReal :=
  max (((∑ k' : Fin 128, (agg I1 I2 x r k' * invd I2 r) * w1l k' k) + (∑ k' : Fin 128, x r k' * w1r k' k)) + b1 k) 0

/-- The first layer's output projected by W2l (64 columns). -/
def pK (r : Fin 50000) (j : Fin 64) : EReal := ∑ k : Fin 128, hK I1 I2 x w1l b1 w1r r k * w2l k j

/-- Second layer, project-then-aggregate: (h·W2r + b2) + agg p · 1/deg. -/
def outK (r : Fin 50000) (j : Fin 64) : EReal :=
  ((∑ k : Fin 128, hK I1 I2 x w1l b1 w1r r k * w2r k j) + b2 j)
    + agg I1 I2 (pK I1 I2 x w1l b1 w1r w2l) r j * invd I2 r

/-- First layer, quotient arrangement: max((agg x / deg)·W1l + b1 + x·W1r, 0). -/
def hR (r : Fin 50000) (k : Fin 128) : EReal :=
  max (((∑ k' : Fin 128, Ideal.div (agg I1 I2 x r k') ((degree I2 r : ℝ) : EReal) * w1l k' k) + b1 k)
    + (∑ k' : Fin 128, x r k' * w1r k' k)) 0

/-- Second layer, aggregate-then-project: ((agg h / deg)·W2l + b2) + h·W2r. -/
def outR (r : Fin 50000) (j : Fin 64) : EReal :=
  ((∑ k : Fin 128, Ideal.div (agg I1 I2 (hR I1 I2 x w1l b1 w1r) r k) ((degree I2 r : ℝ) : EReal) * w2l k j) + b2 j)
    + (∑ k : Fin 128, hR I1 I2 x w1l b1 w1r r k * w2r k j)

end Cert.Sage

end
-- ==== Proof.Layer.lean ====
/-
  The two layers as functions of the arrays a kernel region finds, and the kernel-side arrangement of the network
  as their composition.

  layer1 A X inv Wl Wr b r k = max( Σ_k' (A[r,k']·inv[r])·Wl[k',k] + Σ_k' X[r,k']·Wr[k',k] + b[k], 0 )
  proj h W r j               = Σ_k h[r,k]·W[k,j]
  layer2 A2 inv h Wr b r j   = (Σ_k h[r,k]·Wr[k,j] + b[j]) + A2[r,j]·inv[r]
-/
import proofs.«107244_j42812234006861_2_alg».proof.Proof.Spec

noncomputable section

namespace Cert.Sage

open Idealize.ShloMosaic

def layer1 (A X : Fin 50000 → Fin 128 → EReal) (inv : Fin 50000 → EReal) (wl wr : Fin 128 → Fin 128 → EReal)
    (b : Fin 128 → EReal) (r : Fin 50000) (k : Fin 128) : EReal :=
  max (((∑ k' : Fin 128, (A r k' * inv r) * wl k' k) + (∑ k' : Fin 128, X r k' * wr k' k)) + b k) 0

def proj (h : Fin 50000 → Fin 128 → EReal) (w : Fin 128 → Fin 64 → EReal) (r : Fin 50000) (j : Fin 64) : EReal :=
  ∑ k : Fin 128, h r k * w k j

def layer2 (A2 : Fin 50000 → Fin 64 → EReal) (inv : Fin 50000 → EReal) (h : Fin 50000 → Fin 128 → EReal)
    (wr : Fin 128 → Fin 64 → EReal) (b : Fin 64 → EReal) (r : Fin 50000) (j : Fin 64) : EReal :=
  ((∑ k : Fin 128, h r k * wr k j) + b j) + A2 r j * inv r

variable (I1 I2 : EdgeIdx)
variable (x : Fin 50000 → Fin 128 → EReal) (w1l : Fin 128 → Fin 128 → EReal) (b1 : Fin 128 → EReal)
  (w1r : Fin 128 → Fin 128 → EReal) (w2l : Fin 128 → Fin 64 → EReal) (b2 : Fin 64 → EReal)
  (w2r : Fin 128 → Fin 64 → EReal)

theorem hK_eq : hK I1 I2 x w1l b1 w1r = layer1 (agg I1 I2 x) x (invd I2) w1l w1r b1 := rfl

theorem pK_eq : pK I1 I2 x w1l b1 w1r w2l = proj (hK I1 I2 x w1l b1 w1r) w2l := rfl

theorem outK_eq : outK I1 I2 x w1l b1 w1r w2l b2 w2r
    = layer2 (agg I1 I2 (pK I1 I2 x w1l b1 w1r w2l)) (invd I2) (hK I1 I2 x w1l b1 w1r) w2r b2 := rfl

end Cert.Sage

end
-- ==== Proof.KRegion0.lean ====
/-
  What the first kernel region (layer 1) leaves in its two result arrays, as whole-array functions of the arrays it
  finds at entry.

  The grid has 25 points; point t works on rows 2000·t … 2000·t+1999 of the row-blocked arrays (the aggregated rows,
  the reciprocal-degree column, the node features, and both results) and on the whole of the weight and bias arrays.
  Row p of the block at point t is row 2000·t + p of the array, so what point t writes back is the restriction to
  its rows of ONE function of the entry arrays: `layer1` for the hidden array, `proj` of it for the projection.
  The 25 row blocks cover the 50000 rows.
-/
import proofs.«107244_j42812234006861_2_alg».proof.Proof.Gen.KernelIdeal.Frame
import proofs.«107244_j42812234006861_2_alg».proof.Proof.KPayload
import proofs.«107244_j42812234006861_2_alg».proof.Proof.Layer
import Idealize.ShloMosaic.Lib.Pipeline.Value

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the resident ones at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

theorem t_lt (t : Fin cfg0.N) : t.val < 25 := by
  exact Nat.lt_of_lt_of_eq t.isLt (N_0 : cfg0.N = 25)

/-- Row p of the block at point t is row 2000·t + p of the array. -/
def row (t : Fin cfg0.N) (p : Fin 2000) : Fin 50000 :=
  ⟨t.val * 2000 + p.val, by have := t_lt t; have := p.isLt; omega⟩

/-! ## The input blocks, read at an index -/

theorem rd0 (c : Dev nD) (t : Fin cfg0.N) (p : Fin 2000) (k : Fin 128) :
    iblk0 V c 0 t (ix2 p k) = V c main_v24 (ix2 (row t p) k) := by
  show V c main_v24 (((cfg0.win 0).blk t).view.emb (ix2 p k)) = _
  refine congrArg (V c main_v24) (funext fun a => Fin.ext ?_)
  obtain ⟨⟨e0, e1⟩, -⟩ := idx_facts t
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem rd1 (c : Dev nD) (t : Fin cfg0.N) (p : Fin 2000) (u : Fin 1) :
    iblk0 V c 1 t (ix2 p u) = V c main_v12 (ix2 (row t p) (0 : Fin 1)) := by
  show V c main_v12 (((cfg0.win 1).blk t).view.emb (ix2 p u)) = _
  refine congrArg (V c main_v12) (funext fun a => Fin.ext ?_)
  obtain ⟨-, ⟨e0, e1⟩, -⟩ := idx_facts t
  have hu : u.val = 0 := by omega
  match a with
  | ⟨0, _⟩ => show win0_1.index t (0 : Fin 2) * 2000 + 1 * p.val = t.val * 2000 + p.val; rw [e0]; omega
  | ⟨1, _⟩ => show win0_1.index t (1 : Fin 2) * 1 + 1 * u.val = 0; rw [e1]; omega

theorem rd2 (c : Dev nD) (t : Fin cfg0.N) (p : Fin 2000) (k : Fin 128) :
    iblk0 V c 2 t (ix2 p k) = V c main_arg0 (ix2 (row t p) k) := by
  show V c main_arg0 (((cfg0.win 2).blk t).view.emb (ix2 p k)) = _
  refine congrArg (V c main_arg0) (funext fun a => Fin.ext ?_)
  obtain ⟨-, -, ⟨e0, e1⟩, -⟩ := idx_facts t
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

theorem rd3 (c : Dev nD) (t : Fin cfg0.N) (a b : Fin 128) :
    iblk0 V c 3 t (ix2 a b) = V c main_arg2 (ix2 a b) := by
  show V c main_arg2 (((cfg0.win 3).blk t).view.emb (ix2 a b)) = _
  refine congrArg (V c main_arg2) (funext fun x => Fin.ext ?_)
  obtain ⟨-, -, -, ⟨e0, e1⟩, -⟩ := idx_facts t
  match x with
  | ⟨0, _⟩ => show win0_3.index t (0 : Fin 2) * 128 + 1 * a.val = a.val; rw [e0]; omega
  | ⟨1, _⟩ => show win0_3.index t (1 : Fin 2) * 128 + 1 * b.val = b.val; rw [e1]; omega

theorem rd4 (c : Dev nD) (t : Fin cfg0.N) (u : Fin 1) (b : Fin 128) :
    iblk0 V c 4 t (ix2 u b) = V c main_v25 (ix2 (0 : Fin 1) b) := by
  show V c main_v25 (((cfg0.win 4).blk t).view.emb (ix2 u b)) = _
  refine congrArg (V c main_v25) (funext fun x => Fin.ext ?_)
  obtain ⟨-, -, -, -, ⟨e0, e1⟩, -⟩ := idx_facts t
  have hu : u.val = 0 := by omega
  match x with
  | ⟨0, _⟩ => show win0_4.index t (0 : Fin 2) * 1 + 1 * u.val = 0; rw [e0]; omega
  | ⟨1, _⟩ => show win0_4.index t (1 : Fin 2) * 128 + 1 * b.val = b.val; rw [e1]; omega

theorem rd5 (c : Dev nD) (t : Fin cfg0.N) (a b : Fin 128) :
    iblk0 V c 5 t (ix2 a b) = V c main_arg4 (ix2 a b) := by
  show V c main_arg4 (((cfg0.win 5).blk t).view.emb (ix2 a b)) = _
  refine congrArg (V c main_arg4) (funext fun x => Fin.ext ?_)
  obtain ⟨-, -, -, -, -, ⟨e0, e1⟩, -⟩ := idx_facts t
  match x with
  | ⟨0, _⟩ => show win0_5.index t (0 : Fin 2) * 128 + 1 * a.val = a.val; rw [e0]; omega
  | ⟨1, _⟩ => show win0_5.index t (1 : Fin 2) * 128 + 1 * b.val = b.val; rw [e1]; omega

theorem rd6 (c : Dev nD) (t : Fin cfg0.N) (a : Fin 128) (b : Fin 64) :
    iblk0 V c 6 t (ix2 a b) = V c main_arg5 (ix2 a b) := by
  show V c main_arg5 (((cfg0.win 6).blk t).view.emb (ix2 a b)) = _
  refine congrArg (V c main_arg5) (funext fun x => Fin.ext ?_)
  obtain ⟨-, -, -, -, -, -, ⟨e0, e1⟩, -⟩ := idx_facts t
  match x with
  | ⟨0, _⟩ => show win0_6.index t (0 : Fin 2) * 128 + 1 * a.val = a.val; rw [e0]; omega
  | ⟨1, _⟩ => show win0_6.index t (1 : Fin 2) * 64 + 1 * b.val = b.val; rw [e1]; omega

/-- Where element (p, q) of result block t sits in the hidden array. -/
theorem emb7 (t : Fin cfg0.N) (p : Fin 2000) (q : Fin 128) :
    ((cfg0.win 7).blk t).view.emb (ix2 p q) = ix2 (row t p) q := by
  refine funext fun a => Fin.ext ?_
  obtain ⟨-, -, -, -, -, -, -, ⟨e0, e1⟩, -⟩ := idx_facts t
  match a with
  | ⟨0, _⟩ => show win0_7.index t (0 : Fin 2) * 2000 + 1 * p.val = t.val * 2000 + p.val; rw [e0]; omega
  | ⟨1, _⟩ => show win0_7.index t (1 : Fin 2) * 128 + 1 * q.val = q.val; rw [e1]; omega

/-- Where element (p, j) of result block t sits in the projection array. -/
theorem emb8 (t : Fin cfg0.N) (p : Fin 2000) (j : Fin 64) :
    ((cfg0.win 8).blk t).view.emb (ix2 p j) = ix2 (row t p) j := by
  refine funext fun a => Fin.ext ?_
  obtain ⟨-, -, -, -, -, -, -, -, ⟨e0, e1⟩⟩ := idx_facts t
  match a with
  | ⟨0, _⟩ => show win0_8.index t (0 : Fin 2) * 2000 + 1 * p.val = t.val * 2000 + p.val; rw [e0]; omega
  | ⟨1, _⟩ => show win0_8.index t (1 : Fin 2) * 64 + 1 * j.val = j.val; rw [e1]; omega

/-! ## The two result arrays as functions of the entry arrays -/

/-- The hidden array, by node and column. -/
def hid (c : Dev nD) : Fin 50000 → Fin 128 → EReal :=
  Cert.Sage.layer1 (fun r k => V c main_v24 (ix2 r k)) (fun r k => V c main_arg0 (ix2 r k))
    (fun r => V c main_v12 (ix2 r (0 : Fin 1))) (fun a b => V c main_arg2 (ix2 a b)) (fun a b => V c main_arg4 (ix2 a b))
    (fun b => V c main_v25 (ix2 (0 : Fin 1) b))

/-- The hidden array. -/
def G7 (c : Dev nD) : S50000x128.Idx → EReal := fun i => hid V c (i 0) (i 1)

/-- The projection array. -/
def G8 (c : Dev nD) : S50000x64.Idx → EReal :=
  fun i => Cert.Sage.proj (hid V c) (fun a b => V c main_arg5 (ix2 a b)) (i 0) (i 1)

/-- The stored hidden value of point t at (p, q) is the hidden array's at row 2000·t + p. -/
theorem pay1_blk (c : Dev nD) (t : Fin cfg0.N) (p : Fin 2000) (q : Fin 128) :
    k0_pay1 (F := Ideal) (iblk0 V c 0 t) (iblk0 V c 1 t) (iblk0 V c 2 t) (iblk0 V c 3 t) (iblk0 V c 5 t) (iblk0 V c 4 t) (ix2 p q)
      = hid V c (row t p) q := by
  refine (Pay.pay1_apply _ _ _ _ _ _ p q).trans ?_
  simp only [rd0, rd1, rd2, rd3, rd4, rd5]
  rfl

/-- WHAT POINT t WRITES BACK to the hidden array is block t of `G7`. -/
theorem flushed7 (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S2000x1) hz,
    View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  refine (pay1_blk V c t p q).trans ?_
  show _ = G7 V c (((cfg0.win 7).blk t).view.emb (ix2 p q))
  rw [emb7]
  rfl

/-- WHAT POINT t WRITES BACK to the projection array is block t of `G8`. -/
theorem flushed8 (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz]
  simp only [View.ld_unit_zero (S := S2000x128) hz, View.ld_unit_zero (S := S2000x1) hz,
    View.ld_unit_zero (S := S128x128) hz, View.ld_unit_zero (S := S1x128) hz, View.ld_unit_zero (S := S128x64) hz]
  funext j
  obtain ⟨p, q, rfl⟩ : ∃ (p : Fin 2000) (q : Fin 64), j = ix2 p q := ⟨j 0, j 1, eq_ix2 j⟩
  refine (Pay.pay2_apply _ _ _ _ _ _ _ p q).trans ?_
  simp only [pay1_blk, rd6]
  show _ = G8 V c (((cfg0.win 8).blk t).view.emb (ix2 p q))
  rw [emb8]
  rfl

/-! ## The blocks cover the arrays -/

theorem mem_blk7 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v26_0).slice (win0_7.rect t)).set ↔ _
  rw [View.set_slice_whole, Rect.mem_set_unit]
  exact Iff.rfl

theorem mem_blk8 (t : Fin cfg0.N) (i : S50000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v26_1).slice (win0_8.rect t)).set ↔ _
  rw [View.set_slice_whole, Rect.mem_set_unit]
  exact Iff.rfl

/-- The point whose block holds row n: n / 2000. -/
def pointOf (n : Nat) (h : n < 50000) : Fin cfg0.N :=
  ⟨n / 2000, Nat.lt_of_lt_of_eq (by omega : n / 2000 < 25) (N_0 : cfg0.N = 25).symm⟩

theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  refine ⟨pointOf (i 0).val hi0, flush0_7 _, ?_⟩
  rw [mem_blk7]
  obtain ⟨-, -, -, -, -, -, -, ⟨e0, e1⟩, -⟩ := idx_facts (pointOf (i 0).val hi0)
  have ht : (pointOf (i 0).val hi0).val = (i 0).val / 2000 := rfl
  intro a
  match a with
  | ⟨0, _⟩ =>
    show win0_7.index (pointOf (i 0).val hi0) (0 : Fin 2) * 2000 ≤ (i 0).val
      ∧ (i 0).val < win0_7.index (pointOf (i 0).val hi0) (0 : Fin 2) * 2000 + 2000
    rw [e0, ht]; omega
  | ⟨1, _⟩ =>
    show win0_7.index (pointOf (i 0).val hi0) (1 : Fin 2) * 128 ≤ (i 1).val
      ∧ (i 1).val < win0_7.index (pointOf (i 0).val hi0) (1 : Fin 2) * 128 + 128
    rw [e1]; omega

theorem cover8 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  refine ⟨pointOf (i 0).val hi0, flush0_8 _, ?_⟩
  rw [mem_blk8]
  obtain ⟨-, -, -, -, -, -, -, -, ⟨e0, e1⟩⟩ := idx_facts (pointOf (i 0).val hi0)
  have ht : (pointOf (i 0).val hi0).val = (i 0).val / 2000 := rfl
  intro a
  match a with
  | ⟨0, _⟩ =>
    show win0_8.index (pointOf (i 0).val hi0) (0 : Fin 2) * 2000 ≤ (i 0).val
      ∧ (i 0).val < win0_8.index (pointOf (i 0).val hi0) (0 : Fin 2) * 2000 + 2000
    rw [e0, ht]; omega
  | ⟨1, _⟩ =>
    show win0_8.index (pointOf (i 0).val hi0) (1 : Fin 2) * 64 ≤ (i 1).val
      ∧ (i 1).val < win0_8.index (pointOf (i 0).val hi0) (1 : Fin 2) * 64 + 64
    rw [e1]; omega

/-! ## The arrays after the region -/

/-- THE HIDDEN ARRAY after the region is `G7` of the entry arrays. -/
theorem final7 (c : Dev nD) : (dat0 V c).arrAt 7 cfg0.N = G7 V c :=
  (dat0 V c).arrAt_eq_of_cover 7 (G7 V c) (fun t _ => flushed7 V c t) cover7

/-- THE PROJECTION ARRAY after the region is `G8` of the entry arrays. -/
theorem final8 (c : Dev nD) : (dat0 V c).arrAt 8 cfg0.N = G8 V c :=
  (dat0 V c).arrAt_eq_of_cover 8 (G8 V c) (fun t _ => flushed8 V c t) cover8

end Cert.KernelIdeal.Reg0

end
-- ==== Proof.KRegion1.lean ====
/-
  What the second kernel region (layer 2) leaves in its result array, as a whole-array function of the arrays it
  finds at entry.

  As in the first region the grid has 25 points and point t works on rows 2000·t … 2000·t+1999 of the row-blocked
  arrays (the aggregated projections, the reciprocal-degree column, the hidden array, the result) and on the whole of
  the weight and bias arrays; what point t writes back is the restriction to its rows of `layer2` of the entry
  arrays, and the 25 row blocks cover the 50000 rows.
-/
import proofs.«107244_j42812234006861_2_alg».proof.Proof.Gen.KernelIdeal.Frame
import proofs.«107244_j42812234006861_2_alg».proof.Proof.KPayload
import proofs.«107244_j42812234006861_2_alg».proof.Proof.Layer
import Idealize.ShloMosaic.Lib.Pipeline.Value

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows are at block (t, 0), the resident ones at (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0) :=
  (by decide +kernel : ∀ t : Fin grid1.N, _)

theorem t_lt (t : Fin cfg1.N) : t.val < 25 := Nat.lt_of_lt_of_eq t.isLt (N_1 : cfg1.N = 25)

/-- Row p of the block at point t is row 2000·t + p of the array. -/
def row (t : Fin cfg1.N) (p : Fin 2000) : Fin 50000 :=
  ⟨t.val * 2000 + p.val, by have := t_lt t; have := p.isLt; omega⟩

/-! ## The input blocks, read at an index -/

theorem rd0 (c : Dev nD) (t : Fin cfg1.N) (p : Fin 2000) (j : Fin 64) :
    iblk1 V c 0 t (ix2 p j) = V c main_v37 (ix2 (row t p) j) := by
  show V c main_v37 (((cfg1.win 0).blk t).view.emb (ix2 p j)) = _
  refine congrArg (V c main_v37) (funext fun a => Fin.ext ?_)
  obtain ⟨⟨e0, e1⟩, -⟩ := idx_facts t
  match a with
  | ⟨0, _⟩ => show win1_0.index t (0 : Fin 2) * 2000 + 1 * p.val = t.val * 2000 + p.val; rw [e0]; omega
  | ⟨1, _⟩ => show win1_0.index t (1 : Fin 2) * 64 + 1 * j.val = j.val; rw [e1]; omega

theorem rd1 (c : Dev nD) (t : Fin cfg1.N) (p : Fin 2000) (u : Fin 1) :
    iblk1 V c 1 t (ix2 p u) = V c main_v12 (ix2 (row t p) (0 : Fin 1)) := by
  show V c main_v12 (((cfg1.win 1).blk t).view.emb (ix2 p u)) = _
  refine congrArg (V c main_v12) (funext fun a => Fin.ext ?_)
  obtain ⟨-, ⟨e0, e1⟩, -⟩ := idx_facts t
  have hu : u.val = 0 := by omega
  match a with
  | ⟨0, _⟩ => show win1_1.index t (0 : Fin 2) * 2000 + 1 * p.val = t.val * 2000 + p.val; rw [e0]; omega
  | ⟨1, _⟩ => show win1_1.index t (1 : Fin 2) * 1 + 1 * u.val = 0; rw [e1]; omega

theorem rd2 (c : Dev nD) (t : Fin cfg1.N) (p : Fin 2000) (k : Fin 128) :
    iblk1 V c 2 t (ix2 p k) = V c main_v26_0 (ix2 (row t p) k) := by
  show V c main_v26_0 (((cfg1.win 2).blk t).view.emb (ix2 p k)) = _
  refine congrArg (V c main_v26_0) (funext fun a => Fin.ext ?_)
  obtain ⟨-, -, ⟨e0, e1⟩, -⟩ := idx_facts t
  match a with
  | ⟨0, _⟩ => show win1_2.index t (0 : Fin 2) * 2000 + 1 * p.val = t.val * 2000 + p.val; rw [e0]; omega
  | ⟨1, _⟩ => show win1_2.index t (1 : Fin 2) * 128 + 1 * k.val = k.val; rw [e1]; omega

theorem rd3 (c : Dev nD) (t : Fin cfg1.N) (a : Fin 128) (b : Fin 64) :
    iblk1 V c 3 t (ix2 a b) = V c main_arg7 (ix2 a b) := by
  show V c main_arg7 (((cfg1.win 3).blk t).view.emb (ix2 a b)) = _
  refine congrArg (V c main_arg7) (funext fun x => Fin.ext ?_)
  obtain ⟨-, -, -, ⟨e0, e1⟩, -⟩ := idx_facts t
  match x with
  | ⟨0, _⟩ => show win1_3.index t (0 : Fin 2) * 128 + 1 * a.val = a.val; rw [e0]; omega
  | ⟨1, _⟩ => show win1_3.index t (1 : Fin 2) * 64 + 1 * b.val = b.val; rw [e1]; omega

theorem rd4 (c : Dev nD) (t : Fin cfg1.N) (u : Fin 1) (b : Fin 64) :
    iblk1 V c 4 t (ix2 u b) = V c main_v38 (ix2 (0 : Fin 1) b) := by
  show V c main_v38 (((cfg1.win 4).blk t).view.emb (ix2 u b)) = _
  refine congrArg (V c main_v38) (funext fun x => Fin.ext ?_)
  obtain ⟨-, -, -, -, ⟨e0, e1⟩, -⟩ := idx_facts t
  have hu : u.val = 0 := by omega
  match x with
  | ⟨0, _⟩ => show win1_4.index t (0 : Fin 2) * 1 + 1 * u.val = 0; rw [e0]; omega
  | ⟨1, _⟩ => show win1_4.index t (1 : Fin 2) * 64 + 1 * b.val = b.val; rw [e1]; omega

/-- Where element (p, j) of result block t sits in the result array. -/
theorem emb5 (t : Fin cfg1.N) (p : Fin 2000) (j : Fin 64) :
    ((cfg1.win 5).blk t).view.emb (ix2 p j) = ix2 (row t p) j := by
  refine funext fun a => Fin.ext ?_
  obtain ⟨-, -, -, -, -, ⟨e0, e1⟩⟩ := idx_facts t
  match a with
  | ⟨0, _⟩ => show win1_5.index t (0 : Fin 2) * 2000 + 1 * p.val = t.val * 2000 + p.val; rw [e0]; omega
  | ⟨1, _⟩ => show win1_5.index t (1 : Fin 2) * 64 + 1 * j.val = j.val; rw [e1]; omega

/-! ## The result array as a function of the entry arrays -/

/-- The result, by node and column. -/
def res (c : Dev nD) : Fin 50000 → Fin 64 → EReal :=
  Cert.Sage.layer2 (fun r j => V c main_v37 (ix2 r j)) (fun r => V c main_v12 (ix2 r (0 : Fin 1)))
    (fun r k => V c main_v26_0 (ix2 r k)) (fun a b => V c main_arg7 (ix2 a b)) (fun b => V c main_v38 (ix2 (0 : Fin 1) b))

/-- The result array. -/
def G5 (c : Dev nD) : S50000x64.Idx → EReal := fun i => res V c (i 0) (i 1)

/-- WHAT POINT t WRITES BACK is block t of `G5`. -/
theorem flushed5 (c : Dev nD) (t : Fin cfg1.N) :
    (dat1 V c).flushed 5 t = ((cfg1.win 5).blk t).view.read (Elt Ideal) (G5 V c) := by
  show (cfg1.win 5).cut (grid1.coords t) ((dat1 V c).after 5 t) = _
  rw [after1_5]
  unfold out1_5
  rw [View.canon_unit_zero hz]
  simp only [View.ld_unit_zero (S := S2000x64) hz, View.ld_unit_zero (S := S2000x1) hz,
    View.ld_unit_zero (S := S2000x128) hz, View.ld_unit_zero (S := S128x64) hz, View.ld_unit_zero (S := S1x64) hz]
  funext j
  obtain ⟨p, q, rfl⟩ : ∃ (p : Fin 2000) (q : Fin 64), j = ix2 p q := ⟨j 0, j 1, eq_ix2 j⟩
  refine (Pay.pay_out_apply _ _ _ _ _ p q).trans ?_
  simp only [rd0, rd1, rd2, rd3, rd4]
  show _ = G5 V c (((cfg1.win 5).blk t).view.emb (ix2 p q))
  rw [emb5]
  rfl

/-! ## The blocks cover the array -/

theorem mem_blk5 (t : Fin cfg1.N) (i : S50000x64.Idx) :
    i ∈ ((cfg1.win 5).blk t).view.set ↔ ∀ a : Fin 2, win1_5.index t a * S2000x64.size a ≤ (i a).val
      ∧ (i a).val < win1_5.index t a * S2000x64.size a + S2000x64.size a := by
  show i ∈ ((View.whole main_v39).slice (win1_5.rect t)).set ↔ _
  rw [View.set_slice_whole, Rect.mem_set_unit]
  exact Iff.rfl

/-- The point whose block holds row n: n / 2000. -/
def pointOf (n : Nat) (h : n < 50000) : Fin cfg1.N :=
  ⟨n / 2000, Nat.lt_of_lt_of_eq (by omega : n / 2000 < 25) (N_1 : cfg1.N = 25).symm⟩

theorem cover5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  refine ⟨pointOf (i 0).val hi0, flush1_5 _, ?_⟩
  rw [mem_blk5]
  obtain ⟨-, -, -, -, -, ⟨e0, e1⟩⟩ := idx_facts (pointOf (i 0).val hi0)
  have ht : (pointOf (i 0).val hi0).val = (i 0).val / 2000 := rfl
  intro a
  match a with
  | ⟨0, _⟩ =>
    show win1_5.index (pointOf (i 0).val hi0) (0 : Fin 2) * 2000 ≤ (i 0).val
      ∧ (i 0).val < win1_5.index (pointOf (i 0).val hi0) (0 : Fin 2) * 2000 + 2000
    rw [e0, ht]; omega
  | ⟨1, _⟩ =>
    show win1_5.index (pointOf (i 0).val hi0) (1 : Fin 2) * 64 ≤ (i 1).val
      ∧ (i 1).val < win1_5.index (pointOf (i 0).val hi0) (1 : Fin 2) * 64 + 64
    rw [e1]; omega

/-- THE RESULT ARRAY after the region is `G5` of the entry arrays. -/
theorem final5 (c : Dev nD) : (dat1 V c).arrAt 5 cfg1.N = G5 V c :=
  (dat1 V c).arrAt_eq_of_cover 5 (G5 V c) (fun t _ => flushed5 V c t) cover5

end Cert.KernelIdeal.Reg1

end
-- ==== Proof.KHostDefs.lean ====
/-
  The host stages of the kernel program around its two kernel regions, each as ONE function of the arrays it
  reads: the edge index columns (targets as they stand; sources with a negative index wrapped by the node count), the
  reciprocal of the clamped in-degree as a column, and the aggregation of gathered rows (gather along the sources,
  widen, accumulate into zeros along the targets) for 128 and for 64 columns.
-/
import proofs.«107244_j42812234006861_2_alg».proof.KernelIdeal

noncomputable section

namespace Cert.KernelIdeal.HostV

open Cert.KernelIdeal Idealize.ShloMosaic
open Facts₀ Facts

variable {F : FTy → Type} [FloatOps F] [Facts]

/-- Row 0 of the edge index array, as a vector. -/
def srcRow (ei : IVec S2x600000 32) : IVec S600000 32 :=
  shapeCast _ (extractStridedSlice S1x600000 ![0, 0] ei slices_S2x600000_S1x600000_0_0) shapeCasts_S1x600000_S600000

/-- Row 1 of the edge index array, as a vector. -/
def dstRow (ei : IVec S2x600000 32) : IVec S600000 32 :=
  shapeCast _ (extractStridedSlice S1x600000 ![1, 0] ei slices_S2x600000_S1x600000_1_0) shapeCasts_S1x600000_S600000

/-- The targets as a column. -/
def dstIdx (ei : IVec S2x600000 32) : IVec S600000x1 32 :=
  broadcastInDim S600000x1 ![0] bcast_S600000_S600000x1_0 (dstRow ei)

/-- The sources as a column, a negative index wrapped by the node count. -/
def srcIdx (ei : IVec S2x600000 32) : IVec S600000x1 32 :=
  broadcastInDim S600000x1 ![0] bcast_S600000_S600000x1_0
    (select (cmpi .slt (srcRow ei) (broadcastInDim S600000 ![] bcast_S_S600000 (constantI S_ 32 0#32)))
      (addi (srcRow ei) (broadcastInDim S600000 ![] bcast_S_S600000 (constantI S_ 32 50000#32))) (srcRow ei))

/-- 1 / max(in-degree, 1), as a column. -/
def invDegCol (ei : IVec S2x600000 32) : FVec F S50000x1 .f32 :=
  shapeCast _ (Host.divf (broadcastInDim S50000 ![] bcast_S_S50000 (constant S_ .f32 0x3F800000#32))
    (maximumf (Host.scatterAdd scatter_S50000_S600000x1_S600000_n_0_0_1
        (broadcastInDim S50000 ![] bcast_S_S50000 (constant S_ .f32 0x00000000#32)) (dstIdx ei)
        (broadcastInDim S600000 ![] bcast_S_S600000 (constant S_ .f32 0x3F800000#32)))
      (broadcastInDim S50000 ![] bcast_S_S50000 (constant S_ .f32 0x3F800000#32)))) shapeCasts_S50000_S50000x1

/-- The aggregation of the gathered rows of a 128-column array. -/
def agg128 (X : FVec F S50000x128 .bf16) (ei : IVec S2x600000 32) : FVec F S50000x128 .f32 :=
  Host.scatterAdd scatter_S50000x128_S600000x1_S600000x128_1_0_0_1
    (broadcastInDim S50000x128 ![] bcast_S_S50000x128 (constant S_ .f32 0x00000000#32)) (dstIdx ei)
    (extf .f32 (Host.gather gather_S50000x128_S600000x1_S600000x128_1_0_n_n_0_1_1128 X (srcIdx ei)) bitsLt_bf16_f32)

/-- The aggregation of the gathered rows of a 64-column array. -/
def agg64 (P : FVec F S50000x64 .bf16) (ei : IVec S2x600000 32) : FVec F S50000x64 .f32 :=
  Host.scatterAdd scatter_S50000x64_S600000x1_S600000x64_1_0_0_1
    (broadcastInDim S50000x64 ![] bcast_S_S50000x64 (constant S_ .f32 0x00000000#32)) (dstIdx ei)
    (extf .f32 (Host.gather gather_S50000x64_S600000x1_S600000x64_1_0_n_n_0_1_164 P (srcIdx ei)) bitsLt_bf16_f32)

end Cert.KernelIdeal.HostV

end
-- ==== Proof.KEntry.lean ====
/-
  What the kernel program's two kernel regions find in their input arrays.

  The program runs a stretch of host operations, a first kernel region, a second stretch of host operations and a
  second kernel region. A host operation's result is a function of its operands' contents, so the contents of every
  array a region reads are terms over the launch contents of the program's arguments (and, for the second region,
  over what the first region leaves): the edge-index columns, the reciprocal of the clamped in-degree as a column,
  the aggregation of the gathered rows, and the two bias vectors carried as one-row matrices. No host operation
  writes an argument, so a region finds each argument as launched.
-/
import proofs.«107244_j42812234006861_2_alg».proof.Proof.Gen.KernelIdeal.Frame
import proofs.«107244_j42812234006861_2_alg».proof.Proof.KHostDefs
import Idealize.ShloMosaic.Lib.StableHlo.Run
import Idealize.ShloMosaic.PureOps.Ideal

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The first region's entry -/

/-- The aggregation of the gathered rows of the node array, rounded to the narrow format before the gather. -/
theorem V1_v24 : (V1 m ρ c main_v24 : S50000x128.Idx → EReal)
    = HostV.agg128 (F := Ideal) (truncf .bf16 (m ((c : Thread nD τ).loc main_arg0)) bitsLt_bf16_f32)
        (m ((c : Thread nD τ).loc main_arg1)) := by
  dsimp only [V1, W1, hostOps0]
  after_results_simp
  unfold HostV.agg128 HostV.dstIdx HostV.srcIdx HostV.dstRow HostV.srcRow
  rfl

/-- The reciprocal of the clamped in-degree, as a column. -/
theorem V1_v12 : (V1 m ρ c main_v12 : S50000x1.Idx → EReal)
    = HostV.invDegCol (F := Ideal) (m ((c : Thread nD τ).loc main_arg1)) := by
  dsimp only [V1, W1, hostOps0]
  after_results_simp
  unfold HostV.invDegCol HostV.dstIdx HostV.dstRow
  rfl

/-- The first bias vector, as a one-row matrix. -/
theorem V1_v25 : (V1 m ρ c main_v25 : S1x128.Idx → EReal)
    = shapeCast _ (m ((c : Thread nD τ).loc main_arg3)) shapeCasts_S128_S1x128 := by
  dsimp only [V1, W1, hostOps0]
  after_results_simp
  rfl

/-! No host operation of the first stretch writes an argument. -/

theorem V1_arg0 : V1 m ρ c main_arg0 = m ((c : Thread nD τ).loc main_arg0) := by
  dsimp only [V1, W1, hostOps0]
  after_results_simp

theorem V1_arg2 : V1 m ρ c main_arg2 = m ((c : Thread nD τ).loc main_arg2) := by
  dsimp only [V1, W1, hostOps0]
  after_results_simp

theorem V1_arg4 : V1 m ρ c main_arg4 = m ((c : Thread nD τ).loc main_arg4) := by
  dsimp only [V1, W1, hostOps0]
  after_results_simp

theorem V1_arg5 : V1 m ρ c main_arg5 = m ((c : Thread nD τ).loc main_arg5) := by
  dsimp only [V1, W1, hostOps0]
  after_results_simp

end Cert.KernelIdeal.Entry

end
-- ==== Proof.KEntry1.lean ====
/-
  What the kernel program's second kernel region finds in its input arrays.

  The second stretch of host operations reads the edge index rows the first stretch left, the narrow array the
  first region leaves, and two arguments. A host operation's result is a function of its operands' contents, so the
  contents of every array the second region reads are terms over the launch contents of the program's arguments and
  over what the first region leaves: the aggregation of the gathered rows of the narrow array, the reciprocal of the
  clamped in-degree as a column (an array the first region reads and leaves as it found it), the wide array the
  first region leaves, and the second bias vector carried as a one-row matrix.
-/
import proofs.«107244_j42812234006861_2_alg».proof.Proof.Gen.KernelIdeal.Frame
import proofs.«107244_j42812234006861_2_alg».proof.Proof.KHostDefs
import Idealize.ShloMosaic.Lib.StableHlo.Run
import Idealize.ShloMosaic.PureOps.Ideal

set_option maxRecDepth 16384

noncomputable section

namespace Cert.KernelIdeal.Entry1

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-- The source row of the edge index array, as the first stretch leaves it and the first region does not touch it. -/
theorem W2_v1 : (W2 m ρ c (Proc.devRef .tc main_v1) : S600000.Idx → BitVec 32)
    = HostV.srcRow (m ((c : Thread nD τ).loc main_arg1)) := by
  refine (W2_of_ne m ρ c main_v1 (by decide)).trans ?_
  dsimp only [W1, hostOps0]
  after_results_simp
  rfl

/-- The target row of the edge index array, likewise. -/
theorem W2_v3 : (W2 m ρ c (Proc.devRef .tc main_v3) : S600000.Idx → BitVec 32)
    = HostV.dstRow (m ((c : Thread nD τ).loc main_arg1)) := by
  refine (W2_of_ne m ρ c main_v3 (by decide)).trans ?_
  dsimp only [W1, hostOps0]
  after_results_simp
  rfl

theorem W2_arg6 : W2 m ρ c (Proc.devRef .tc main_arg6) = m ((c : Thread nD τ).loc main_arg6) := by
  refine (W2_of_ne m ρ c main_arg6 (by decide)).trans ?_
  dsimp only [W1, hostOps0]
  after_results_simp

theorem W2_arg7 : W2 m ρ c (Proc.devRef .tc main_arg7) = m ((c : Thread nD τ).loc main_arg7) := by
  refine (W2_of_ne m ρ c main_arg7 (by decide)).trans ?_
  dsimp only [W1, hostOps0]
  after_results_simp

/-- The aggregation of the gathered rows of the narrow array the first region leaves. -/
theorem V3_v37 : (V3 m ρ c main_v37 : S50000x64.Idx → EReal)
    = HostV.agg64 (F := Ideal) (W2 m ρ c (Proc.devRef .tc main_v26_1)) (m ((c : Thread nD τ).loc main_arg1)) := by
  dsimp only [V3, W3, hostOps1]
  after_results_simp
  rw [W2_v1, W2_v3]
  unfold HostV.agg64 HostV.dstIdx HostV.srcIdx
  rfl

/-- The reciprocal of the clamped in-degree: the first region reads this array and leaves it as it found it, and
    the second stretch does not write it. -/
theorem V3_v12 : (V3 m ρ c main_v12 : S50000x1.Idx → EReal)
    = HostV.invDegCol (F := Ideal) (m ((c : Thread nD τ).loc main_arg1)) := by
  have h3 : V3 m ρ c main_v12 = W2 m ρ c (Proc.devRef .tc main_v12) := by
    dsimp only [V3, W3, hostOps1]
    after_results_simp
  have h2 : W2 m ρ c (Proc.devRef .tc main_v12) = W1 m ρ c (Proc.devRef .tc main_v12) :=
    (W2_arr m ρ c 1).trans (((dat0 (V1 m ρ) c).arrAt_in 1 rfl _).trans (A_eq0 (V1 m ρ) c 1))
  have h1 : (W1 m ρ c (Proc.devRef .tc main_v12) : S50000x1.Idx → EReal)
      = HostV.invDegCol (F := Ideal) (m ((c : Thread nD τ).loc main_arg1)) := by
    dsimp only [W1, hostOps0]
    after_results_simp
    unfold HostV.invDegCol HostV.dstIdx HostV.dstRow
    rfl
  exact h3.trans (h2.trans h1)

/-- The wide array the first region leaves. -/
theorem V3_v26_0 : V3 m ρ c main_v26_0 = W2 m ρ c (Proc.devRef .tc main_v26_0) := by
  dsimp only [V3, W3, hostOps1]
  after_results_simp

/-- The second bias vector, as a one-row matrix. -/
theorem V3_v38 : (V3 m ρ c main_v38 : S1x64.Idx → EReal)
    = shapeCast _ (m ((c : Thread nD τ).loc main_arg6)) shapeCasts_S64_S1x64 := by
  dsimp only [V3, W3, hostOps1]
  after_results_simp
  rw [W2_arg6]
  rfl

theorem V3_arg7 : V3 m ρ c main_arg7 = m ((c : Thread nD τ).loc main_arg7) := by
  refine Eq.trans ?_ (W2_arg7 m ρ c)
  dsimp only [V3, W3, hostOps1]
  after_results_simp

end Cert.KernelIdeal.Entry1

end
-- ==== Proof.KHostApply.lean ====
/-
  THE HOST STAGES OF THE KERNEL PROGRAM READ AT AN INDEX. The reciprocal-degree column at (r, 0) is the quotient
  1 / max(#{edges landing on r}, 1); the aggregation of the gathered rows at (r, k) is the sum, over the edges landing
  on node r, of column k of their source rows. Both follow from reading each host operation at an index: a rank-0
  constant broadcast to a shape is its value everywhere, a vector cast to a column reads the vector, an accumulating
  scatter of ones into zeros counts the landing updates, an accumulating scatter of rows into zeros sums the landing
  rows, a widening of format is the identity on the extended reals, and a row gather reads the clamped source row.
-/
import proofs.«107244_j42812234006861_2_alg».proof.Proof.KHostDefs
import proofs.«107244_j42812234006861_2_alg».proof.Proof.Spec
import proofs.«107244_j42812234006861_2_alg».proof.Proof.LibKeepdims
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostV

open Cert.KernelIdeal Idealize.ShloMosaic Idealize.ShloMosaic.ValueIdx
open Facts₀ Facts

variable [Facts]

/-- A rank-0 f32 constant broadcast to any shape reads, at every index, the extended real its pattern denotes. -/
theorem bcast_const_apply {T : Shape} (h : (⟨0, ![]⟩ : Shape).BroadcastsInDim T ![]) (w : BitVec 32) (j : T.Idx) :
    broadcastInDim T ![] h (constant (F := Ideal) (⟨0, ![]⟩ : Shape) .f32 w) j = Ideal.ofBits .f32 w :=
  broadcastInDim_scalar_apply h _ j

/-- The broadcast pattern of +0 is the zero array. -/
theorem bcast_zero {T : Shape} (h : (⟨0, ![]⟩ : Shape).BroadcastsInDim T ![]) :
    broadcastInDim T ![] h (constant (F := Ideal) (⟨0, ![]⟩ : Shape) .f32 0x00000000#32) = fun _ => (0 : EReal) :=
  funext fun j => (bcast_const_apply h _ j).trans Ideal.ofBits_zero_f32

/-- The broadcast pattern of 1.0 is the array of ones. -/
theorem bcast_one {T : Shape} (h : (⟨0, ![]⟩ : Shape).BroadcastsInDim T ![]) :
    broadcastInDim T ![] h (constant (F := Ideal) (⟨0, ![]⟩ : Shape) .f32 0x3F800000#32) = fun _ => (1 : EReal) :=
  funext fun j => (bcast_const_apply h _ j).trans Ideal.ofBits_one_f32

/-- Gather rows along the sources, widen, accumulate into zeros along the targets, read at (r, k): the sum over the
    edges landing on r of column k of their source rows. For any number of columns. -/
theorem agg_gen {C : Nat}
    (ds : ScatterDims (⟨2, ![50000, C]⟩ : Shape) (⟨2, ![600000, 1]⟩ : Shape) (⟨2, ![600000, C]⟩ : Shape))
    (wfs : ScatterDims.WF (⟨2, ![50000, C]⟩ : Shape) (⟨2, ![600000, 1]⟩ : Shape) (⟨2, ![600000, C]⟩ : Shape) [1] [0] [0] 1)
    (hds : ds = Cert.ScatterGather.rowsScatter 50000 600000 C wfs)
    (dg : GatherDims (⟨2, ![50000, C]⟩ : Shape) (⟨2, ![600000, 1]⟩ : Shape) (⟨2, ![600000, C]⟩ : Shape))
    (wfg : GatherDims.WF (⟨2, ![50000, C]⟩ : Shape) (⟨2, ![600000, 1]⟩ : Shape) (⟨2, ![600000, C]⟩ : Shape) [1] [0] [] [0] [] 1 ![1, C])
    (hdg : dg = Cert.ScatterGather.rowsDims 50000 600000 C wfg)
    (Z : FVec Ideal (⟨2, ![50000, C]⟩ : Shape) .f32) (hZ : Z = fun _ => (0 : EReal))
    (X : FVec Ideal (⟨2, ![50000, C]⟩ : Shape) .bf16) (I1 I2 : IVec (⟨2, ![600000, 1]⟩ : Shape) 32)
    (hlt : FTy.bits .bf16 < FTy.bits .f32) (r : Fin 50000) (k : Fin C) :
    Host.scatterAdd (F := Ideal) ds Z I2 (extf .f32 (Host.gather dg X I1) hlt) (ix2 r k)
      = Cert.Sage.agg I1 I2 (fun r k => X (ix2 r k)) r k := by
  subst hds hdg hZ
  refine (Cert.GraphMean.scatter_rows_apply wfs I2 _ r k).trans ?_
  unfold Cert.Sage.agg Cert.Sage.src
  refine Finset.sum_congr rfl fun e _ => ?_
  exact Cert.ScatterGather.gather_rows_apply Cert.Sage.nodes_pos wfg X I1 (ix2 e k)

/-- The reciprocal-degree column at (r, 0): the quotient of 1 by the clamped in-degree of node r. -/
theorem invDegCol_apply (ei : IVec S2x600000 32) (r : Fin 50000) :
    invDegCol (F := Ideal) ei (ix2 r (0 : Fin 1)) = Cert.Sage.invd (dstIdx ei) r := by
  unfold invDegCol Cert.Sage.invd
  refine (Cert.Keepdims.shapeCast_a_a1_apply _ _ r 0).trans ?_
  refine (hostDivf_apply _ _ (ix1 r)).trans ?_
  refine congrArg₂ Ideal.div ?_ ?_
  · exact (bcast_const_apply _ _ _).trans Ideal.ofBits_one_f32
  · refine (maximumf_apply _ _ (ix1 r)).trans ?_
    rw [Cert.GraphMean.host_count_apply scatter_S50000_S600000x1_S600000_n_0_0_1
        scatter_S50000_S600000x1_S600000_n_0_0_1_wf rfl _ (bcast_zero _) (dstIdx ei) _ (bcast_one _) r,
      bcast_const_apply, Ideal.ofBits_one_f32]
    exact Cert.GraphMean.max_count_one (dstIdx ei) r

/-- The 128-column aggregation at (r, k): the sum over the edges landing on r of column k of their source rows. -/
theorem agg128_apply (X : FVec Ideal S50000x128 .bf16) (ei : IVec S2x600000 32) (r : Fin 50000) (k : Fin 128) :
    agg128 (F := Ideal) X ei (ix2 r k) = Cert.Sage.agg (srcIdx ei) (dstIdx ei) (fun r k => X (ix2 r k)) r k := by
  unfold agg128
  exact agg_gen _ scatter_S50000x128_S600000x1_S600000x128_1_0_0_1_wf rfl
    _ gather_S50000x128_S600000x1_S600000x128_1_0_n_n_0_1_1128_wf rfl _ (bcast_zero _) X (srcIdx ei) (dstIdx ei) _ r k

/-- The 64-column aggregation at (r, j): the sum over the edges landing on r of column j of their source rows. -/
theorem agg64_apply (P : FVec Ideal S50000x64 .bf16) (ei : IVec S2x600000 32) (r : Fin 50000) (j : Fin 64) :
    agg64 (F := Ideal) P ei (ix2 r j) = Cert.Sage.agg (srcIdx ei) (dstIdx ei) (fun r j => P (ix2 r j)) r j := by
  unfold agg64
  exact agg_gen _ scatter_S50000x64_S600000x1_S600000x64_1_0_0_1_wf rfl
    _ gather_S50000x64_S600000x1_S600000x64_1_0_n_n_0_1_164_wf rfl _ (bcast_zero _) P (srcIdx ei) (dstIdx ei) _ r j

end Cert.KernelIdeal.HostV

end
-- ==== Proof.KValue.lean ====
/-
  The kernel program's result as ONE function of its arguments.

  The fold of buffer contents through @main is opened from the end: the result buffer holds what the second region
  leaves (`layer2` of the arrays it finds); those arrays are the reciprocal-degree column and the bias row computed
  by the host, the hidden array the first region left (`layer1` of ITS entry arrays), and the aggregation — gather
  along the sources, accumulate along the targets — of the projection the first region left. Reading each host stage at
  an index turns the whole into `outK` of the arguments: the reciprocal-degree arrangement with the second layer's
  projection taken before the aggregation.
-/
import proofs.«107244_j42812234006861_2_alg».proof.Proof.KRun
import proofs.«107244_j42812234006861_2_alg».proof.Proof.KRegion0
import proofs.«107244_j42812234006861_2_alg».proof.Proof.KRegion1
import proofs.«107244_j42812234006861_2_alg».proof.Proof.KEntry
import proofs.«107244_j42812234006861_2_alg».proof.Proof.KEntry1
import proofs.«107244_j42812234006861_2_alg».proof.Proof.KHostApply
import Idealize.ShloMosaic.Lib.ValueLayout

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The argument arrays at launch. -/
abbrev a0 : S50000x128.Idx → EReal := m ((c : Thread nD τ).loc main_arg0)
abbrev a1 : IVec S2x600000 32 := m ((c : Thread nD τ).loc main_arg1)
abbrev a2 : S128x128.Idx → EReal := m ((c : Thread nD τ).loc main_arg2)
abbrev a3 : S128.Idx → EReal := m ((c : Thread nD τ).loc main_arg3)
abbrev a4 : S128x128.Idx → EReal := m ((c : Thread nD τ).loc main_arg4)
abbrev a5 : S128x64.Idx → EReal := m ((c : Thread nD τ).loc main_arg5)
abbrev a6 : S64.Idx → EReal := m ((c : Thread nD τ).loc main_arg6)
abbrev a7 : S128x64.Idx → EReal := m ((c : Thread nD τ).loc main_arg7)

/-- The network's result in the kernel's arrangement, as an array. -/
def out : S50000x64.Idx → EReal := fun i =>
  Cert.Sage.outK (HostV.srcIdx (a1 m c)) (HostV.dstIdx (a1 m c)) (fun r k => a0 m c (ix2 r k)) (fun a b => a2 m c (ix2 a b))
    (fun a => a3 m c (ix1 a)) (fun a b => a4 m c (ix2 a b)) (fun a b => a5 m c (ix2 a b)) (fun a => a6 m c (ix1 a))
    (fun a b => a7 m c (ix2 a b)) (i 0) (i 1)

/-- The hidden array the first region leaves is the first layer of the arguments. -/
theorem hid_eq : Reg0.hid (V1 m ρ) c
    = Cert.Sage.hK (HostV.srcIdx (a1 m c)) (HostV.dstIdx (a1 m c)) (fun r k => a0 m c (ix2 r k)) (fun a b => a2 m c (ix2 a b))
        (fun a => a3 m c (ix1 a)) (fun a b => a4 m c (ix2 a b)) := by
  unfold Reg0.hid
  rw [Cert.Sage.hK_eq]
  have e24 : (fun (r : Fin 50000) (k : Fin 128) => V1 m ρ c main_v24 (ix2 r k))
      = Cert.Sage.agg (HostV.srcIdx (a1 m c)) (HostV.dstIdx (a1 m c)) (fun r k => a0 m c (ix2 r k)) :=
    funext fun r => funext fun k =>
      (congrFun (Entry.V1_v24 m ρ c) (ix2 r k)).trans (HostV.agg128_apply _ _ r k)
  have e0 : (fun (r : Fin 50000) (k : Fin 128) => V1 m ρ c main_arg0 (ix2 r k)) = fun r k => a0 m c (ix2 r k) :=
    funext fun r => funext fun k => congrFun (Entry.V1_arg0 m ρ c) (ix2 r k)
  have e12 : (fun (r : Fin 50000) => V1 m ρ c main_v12 (ix2 r (0 : Fin 1))) = Cert.Sage.invd (HostV.dstIdx (a1 m c)) :=
    funext fun r => (congrFun (Entry.V1_v12 m ρ c) (ix2 r (0 : Fin 1))).trans (HostV.invDegCol_apply _ r)
  have e2 : (fun (a b : Fin 128) => V1 m ρ c main_arg2 (ix2 a b)) = fun a b => a2 m c (ix2 a b) :=
    funext fun a => funext fun b => congrFun (Entry.V1_arg2 m ρ c) (ix2 a b)
  have e4 : (fun (a b : Fin 128) => V1 m ρ c main_arg4 (ix2 a b)) = fun a b => a4 m c (ix2 a b) :=
    funext fun a => funext fun b => congrFun (Entry.V1_arg4 m ρ c) (ix2 a b)
  have e25 : (fun (b : Fin 128) => V1 m ρ c main_v25 (ix2 (0 : Fin 1) b)) = fun b => a3 m c (ix1 b) :=
    funext fun b => (congrFun (Entry.V1_v25 m ρ c) (ix2 (0 : Fin 1) b)).trans (shapeCast_a_1a_apply _ _ _ b)
  rw [e24, e0, e12, e2, e4, e25]

/-- The projection array the first region leaves. -/
theorem proj_eq (r : Fin 50000) (j : Fin 64) :
    W2 m ρ c (Proc.devRef .tc main_v26_1) (ix2 r j)
      = Cert.Sage.pK (HostV.srcIdx (a1 m c)) (HostV.dstIdx (a1 m c)) (fun r k => a0 m c (ix2 r k)) (fun a b => a2 m c (ix2 a b))
        (fun a => a3 m c (ix1 a)) (fun a b => a4 m c (ix2 a b)) (fun a b => a5 m c (ix2 a b)) r j := by
  have e5 : (fun (a : Fin 128) (b : Fin 64) => V1 m ρ c main_arg5 (ix2 a b)) = fun a b => a5 m c (ix2 a b) :=
    funext fun a => funext fun b => congrFun (Entry.V1_arg5 m ρ c) (ix2 a b)
  refine (congrFun ((W2_arr m ρ c 8).trans (Reg0.final8 (V1 m ρ) c)) (ix2 r j)).trans ?_
  show Cert.Sage.proj (Reg0.hid (V1 m ρ) c) (fun a b => V1 m ρ c main_arg5 (ix2 a b)) r j = _
  rw [hid_eq, e5, Cert.Sage.pK_eq]

/-- The hidden array the first region leaves, as the second region finds it. -/
theorem hidden_eq (r : Fin 50000) (k : Fin 128) :
    W2 m ρ c (Proc.devRef .tc main_v26_0) (ix2 r k)
      = Cert.Sage.hK (HostV.srcIdx (a1 m c)) (HostV.dstIdx (a1 m c)) (fun r k => a0 m c (ix2 r k)) (fun a b => a2 m c (ix2 a b))
        (fun a => a3 m c (ix1 a)) (fun a b => a4 m c (ix2 a b)) r k := by
  refine (congrFun ((W2_arr m ρ c 7).trans (Reg0.final7 (V1 m ρ) c)) (ix2 r k)).trans ?_
  show Reg0.hid (V1 m ρ) c r k = _
  rw [hid_eq]

/-- THE RESULT BUFFER after the run holds `out` of the arguments. -/
theorem result_eq : W4 m ρ c (Proc.devRef .tc main_v39) = out m c := by
  refine ((W4_arr m ρ c 5).trans (Reg1.final5 (V3 m ρ) c)).trans ?_
  funext i
  show Reg1.res (V3 m ρ) c (i 0) (i 1) = _
  unfold Reg1.res out
  rw [Cert.Sage.outK_eq]
  have e37 : (fun (r : Fin 50000) (j : Fin 64) => V3 m ρ c main_v37 (ix2 r j))
      = Cert.Sage.agg (HostV.srcIdx (a1 m c)) (HostV.dstIdx (a1 m c))
          (Cert.Sage.pK (HostV.srcIdx (a1 m c)) (HostV.dstIdx (a1 m c)) (fun r k => a0 m c (ix2 r k)) (fun a b => a2 m c (ix2 a b))
            (fun a => a3 m c (ix1 a)) (fun a b => a4 m c (ix2 a b)) (fun a b => a5 m c (ix2 a b))) :=
    funext fun r => funext fun j =>
      ((congrFun (Entry1.V3_v37 m ρ c) (ix2 r j)).trans (HostV.agg64_apply _ _ r j)).trans
        (congrArg (fun P => Cert.Sage.agg (HostV.srcIdx (a1 m c)) (HostV.dstIdx (a1 m c)) P r j)
          (funext fun r' => funext fun j' => proj_eq m ρ c r' j'))
  have e12 : (fun (r : Fin 50000) => V3 m ρ c main_v12 (ix2 r (0 : Fin 1))) = Cert.Sage.invd (HostV.dstIdx (a1 m c)) :=
    funext fun r => (congrFun (Entry1.V3_v12 m ρ c) (ix2 r (0 : Fin 1))).trans (HostV.invDegCol_apply _ r)
  have e26 : (fun (r : Fin 50000) (k : Fin 128) => V3 m ρ c main_v26_0 (ix2 r k))
      = Cert.Sage.hK (HostV.srcIdx (a1 m c)) (HostV.dstIdx (a1 m c)) (fun r k => a0 m c (ix2 r k)) (fun a b => a2 m c (ix2 a b))
          (fun a => a3 m c (ix1 a)) (fun a b => a4 m c (ix2 a b)) :=
    funext fun r => funext fun k => (congrFun (Entry1.V3_v26_0 m ρ c) (ix2 r k)).trans (hidden_eq m ρ c r k)
  have e7 : (fun (a : Fin 128) (b : Fin 64) => V3 m ρ c main_arg7 (ix2 a b)) = fun a b => a7 m c (ix2 a b) :=
    funext fun a => funext fun b => congrFun (Entry1.V3_arg7 m ρ c) (ix2 a b)
  have e38 : (fun (b : Fin 64) => V3 m ρ c main_v38 (ix2 (0 : Fin 1) b)) = fun b => a6 m c (ix1 b) :=
    funext fun b => (congrFun (Entry1.V3_v38 m ρ c) (ix2 (0 : Fin 1) b)).trans (shapeCast_a_1a_apply _ _ _ b)
  rw [e37, e12, e26, e7, e38]

end Cert.KernelIdeal.Val

end
-- ==== Proof.RefValue.lean ====
/-
  The reference program's value, read index by index.

  The reference is a two-layer graph network with mean aggregation. Each layer gathers the rows of a node array
  along the edges' sources, adds the gathered rows into the rows the edges point to, divides each row by the
  clamped in-degree, projects, adds a bias and adds a second projection of the node array itself; the first layer
  is followed by a maximum with zero. Read at one element, every operation of the program is one step of the
  textbook expression `Cert.Sage.outR`: a gather reads the source row of an edge, an accumulating scatter into
  zeros is the sum over the edges landing on a node, a scatter of ones is the number of those edges, a product of
  matrices is a finite sum of products.
-/
import proofs.«107244_j42812234006861_2_alg».proof.Proof.Gen.ReferenceIdeal.Read
import proofs.«107244_j42812234006861_2_alg».proof.Proof.Spec
import Idealize.ShloMosaic.Lib.IdealHost

noncomputable section

namespace Cert.Sage.Ref

open Idealize.ShloMosaic Idealize.ShloMosaic.ValueIdx Cert.ScatterGather Cert.GraphMean
open Cert.ReferenceIdeal Cert.ReferenceIdeal.Gen Cert.ReferenceIdeal.Read

/-! ## The host's accumulating row scatter and row gather, whatever their records are called -/

/-- The host's accumulating scatter of rows into zeros, read at `(r, k)`: the sum of column `k` of the update rows
    that land on row `r`. -/
theorem host_rows_apply {N M C w : Nat} (d : ScatterDims ⟨2, ![N, C]⟩ ⟨2, ![M, 1]⟩ ⟨2, ![M, C]⟩)
    (wf : ScatterDims.WF ⟨2, ![N, C]⟩ ⟨2, ![M, 1]⟩ ⟨2, ![M, C]⟩ [1] [0] [0] 1) (hd : d = rowsScatter N M C wf)
    (Z : FVec Ideal ⟨2, ![N, C]⟩ .f32) (hZ : Z = fun _ => 0) (idx : IVec ⟨2, ![M, 1]⟩ w)
    (U : FVec Ideal ⟨2, ![M, C]⟩ .f32) (r : Fin N) (k : Fin C) :
    Host.scatterAdd (F := Ideal) d Z idx U (ix2 r k) = ∑ e ∈ landing idx r, U (ix2 e k) := by
  subst hd hZ
  exact scatter_rows_apply wf idx U r k

/-- The host's gather of rows, read at `(e, k)`: column `k` of the row the start index of `e` names, clamped. -/
theorem host_gather_apply {N M C w : Nat} (hN : 0 < N) (d : GatherDims ⟨2, ![N, C]⟩ ⟨2, ![M, 1]⟩ ⟨2, ![M, C]⟩)
    (wf : GatherDims.WF ⟨2, ![N, C]⟩ ⟨2, ![M, 1]⟩ ⟨2, ![M, C]⟩ [1] [0] [] [0] [] 1 ![1, C]) (hd : d = rowsDims N M C wf)
    (X : FVec Ideal ⟨2, ![N, C]⟩ .f32) (idx : IVec ⟨2, ![M, 1]⟩ w) (e : Fin M) (k : Fin C) :
    Host.gather d X idx (ix2 e k) = X (ix2 (clampRow N hN idx e) k) := by
  subst hd
  exact gather_rows_apply hN wf X idx (ix2 e k)

/-! ## The constant arrays -/

theorem zero_v11 : val_main_v11 (F := Ideal) = fun _ => 0 := by
  funext i
  rw [val_main_v11_apply, val_main_cst_apply, Ideal.ofBits_def, Ideal.ofBits_zero_f32]

theorem zero_v37 : val_main_v37 (F := Ideal) = fun _ => 0 := by
  funext i
  rw [val_main_v37_apply, val_main_cst_6_apply, Ideal.ofBits_def, Ideal.ofBits_zero_f32]

theorem zero_v15 : val_main_v15 (F := Ideal) = fun _ => 0 := by
  funext i
  rw [val_main_v15_apply, val_main_cst_2_apply, Ideal.ofBits_def, Ideal.ofBits_zero_f32]

theorem zero_v41 : val_main_v41 (F := Ideal) = fun _ => 0 := by
  funext i
  rw [val_main_v41_apply, val_main_cst_8_apply, Ideal.ofBits_def, Ideal.ofBits_zero_f32]

theorem one_v14 : val_main_v14 (F := Ideal) = fun _ => 1 := by
  funext i
  rw [val_main_v14_apply, val_main_cst_1_apply, Ideal.ofBits_def, Ideal.ofBits_one_f32]

theorem one_v40 : val_main_v40 (F := Ideal) = fun _ => 1 := by
  funext i
  rw [val_main_v40_apply, val_main_cst_7_apply, Ideal.ofBits_def, Ideal.ofBits_one_f32]

theorem one_v18 (i : S50000.Idx) : val_main_v18 (F := Ideal) i = 1 := by
  rw [val_main_v18_apply, val_main_cst_3_apply, Ideal.ofBits_def, Ideal.ofBits_one_f32]

theorem one_v44 (i : S50000.Idx) : val_main_v44 (F := Ideal) i = 1 := by
  rw [val_main_v44_apply, val_main_cst_9_apply, Ideal.ofBits_def, Ideal.ofBits_one_f32]

theorem zero_call0 (i : S50000x128.Idx) : val_main_call0_v0 (F := Ideal) i = 0 := by
  rw [val_main_call0_v0_apply, val_main_call0_cst_apply, Ideal.ofBits_def, Ideal.ofBits_zero_f32]

/-! ## The index columns: the program computes each of the two once per use, by the same operations -/

theorem v35_eq (x1 : IVec S2x600000 32) : val_main_v35 (F := Ideal) x1 = val_main_v9 (F := Ideal) x1 := rfl
theorem v16_eq (x1 : IVec S2x600000 32) : val_main_v16 (F := Ideal) x1 = val_main_v12 (F := Ideal) x1 := rfl
theorem v38_eq (x1 : IVec S2x600000 32) : val_main_v38 (F := Ideal) x1 = val_main_v12 (F := Ideal) x1 := rfl
theorem v42_eq (x1 : IVec S2x600000 32) : val_main_v42 (F := Ideal) x1 = val_main_v12 (F := Ideal) x1 := rfl

/-! ## The first layer -/

section Layer1
variable (x0 : FVec Ideal S50000x128 .f32) (x1 : IVec S2x600000 32)

/-- The gathered rows: row `e` is the source row of edge `e`. -/
theorem v10_apply (e : Fin 600000) (k : Fin 128) :
    val_main_v10 (F := Ideal) x0 x1 (ix2 e k) = x0 (ix2 (src (val_main_v9 (F := Ideal) x1) e) k) := by
  unfold val_main_v10 src
  exact host_gather_apply nodes_pos _ gather_S50000x128_S600000x1_S600000x128_1_0_n_n_0_1_1128_wf rfl x0 _ e k

/-- The accumulated rows: the sum of the source rows of the edges landing on a node. -/
theorem v13_apply (r : Fin 50000) (k : Fin 128) :
    val_main_v13 (F := Ideal) x0 x1 (ix2 r k)
      = agg (val_main_v9 (F := Ideal) x1) (val_main_v12 (F := Ideal) x1) (fun r k => x0 (ix2 r k)) r k := by
  unfold val_main_v13 agg
  refine (host_rows_apply scatter_S50000x128_S600000x1_S600000x128_1_0_0_1
    scatter_S50000x128_S600000x1_S600000x128_1_0_0_1_wf rfl _ zero_v11 _ _ r k).trans ?_
  exact Finset.sum_congr rfl fun e _ => v10_apply x0 x1 e k

/-- The divisor column: the clamped in-degree. -/
theorem v19_apply (r : Fin 50000) :
    val_main_v19 (F := Ideal) x1 (ix1 r) = ((degree (val_main_v12 (F := Ideal) x1) r : ℝ) : EReal) := by
  rw [val_main_v19_apply, Ideal.maximumf_def, one_v18]
  unfold val_main_v17
  rw [host_count_apply scatter_S50000_S600000x1_S600000_n_0_0_1 scatter_S50000_S600000x1_S600000_n_0_0_1_wf rfl
    _ zero_v15 _ _ one_v14 r, v16_eq]
  exact max_count_one _ r

theorem v21_apply (r : Fin 50000) (k : Fin 128) :
    val_main_v21 (F := Ideal) x1 (ix2 r k) = ((degree (val_main_v12 (F := Ideal) x1) r : ℝ) : EReal) := by
  rw [val_main_v21_apply, val_main_v20_apply,
    show idx_main_v20 (idx_main_v21 (ix2 r k)) = ix1 r from
      funext fun a => Fin.ext (by match a with | ⟨0, _⟩ => rfl)]
  exact v19_apply x1 r

/-- The mean rows. -/
theorem v22_apply (r : Fin 50000) (k : Fin 128) :
    val_main_v22 (F := Ideal) x0 x1 (ix2 r k)
      = Ideal.div (agg (val_main_v9 (F := Ideal) x1) (val_main_v12 (F := Ideal) x1) (fun r k => x0 (ix2 r k)) r k)
          ((degree (val_main_v12 (F := Ideal) x1) r : ℝ) : EReal) := by
  rw [val_main_v22_apply, Ideal.hostDivf_def, v13_apply, v21_apply]

end Layer1

section Hidden
variable (x0 : FVec Ideal S50000x128 .f32) (x1 : IVec S2x600000 32) (x2 : FVec Ideal S128x128 .f32)
  (x3 : FVec Ideal S128 .f32) (x4 : FVec Ideal S128x128 .f32)

/-- The mean rows projected by the first weight matrix. -/
theorem v23_apply (r : Fin 50000) (k : Fin 128) :
    val_main_v23 (F := Ideal) x0 x1 x2 (ix2 r k)
      = ∑ k' : Fin 128,
          Ideal.div (agg (val_main_v9 (F := Ideal) x1) (val_main_v12 (F := Ideal) x1) (fun r k => x0 (ix2 r k)) r k')
            ((degree (val_main_v12 (F := Ideal) x1) r : ℝ) : EReal) * x2 (ix2 k' k) := by
  rw [val_main_v23_apply]
  refine Finset.sum_congr rfl fun k' _ => ?_
  rw [show lidx_main_v23 (ix2 r k) k' = ix2 r k' from
      funext fun a => Fin.ext (by match a with | ⟨0, _⟩ => rfl | ⟨1, _⟩ => rfl),
    show ridx_main_v23 (ix2 r k) k' = ix2 k' k from
      funext fun a => Fin.ext (by match a with | ⟨0, _⟩ => rfl | ⟨1, _⟩ => rfl),
    v22_apply]

/-- The first bias, broadcast along the rows. -/
theorem v25_apply (r : Fin 50000) (k : Fin 128) : val_main_v25 (F := Ideal) x3 (ix2 r k) = x3 (ix1 k) := by
  rw [val_main_v25_apply, val_main_v24_apply,
    show idx_main_v24 (idx_main_v25 (ix2 r k)) = ix1 k from
      funext fun a => Fin.ext (by match a with | ⟨0, _⟩ => rfl)]

/-- The node array projected by the second weight matrix of the first layer. -/
theorem v27_apply (r : Fin 50000) (k : Fin 128) :
    val_main_v27 (F := Ideal) x0 x4 (ix2 r k) = ∑ k' : Fin 128, x0 (ix2 r k') * x4 (ix2 k' k) := by
  rw [val_main_v27_apply]
  refine Finset.sum_congr rfl fun k' _ => ?_
  rw [show lidx_main_v27 (ix2 r k) k' = ix2 r k' from
      funext fun a => Fin.ext (by match a with | ⟨0, _⟩ => rfl | ⟨1, _⟩ => rfl),
    show ridx_main_v27 (ix2 r k) k' = ix2 k' k from
      funext fun a => Fin.ext (by match a with | ⟨0, _⟩ => rfl | ⟨1, _⟩ => rfl)]

/-- THE HIDDEN LAYER: the first layer's output is `hR`. -/
theorem v29_apply (r : Fin 50000) (k : Fin 128) :
    val_main_v29 (F := Ideal) x0 x1 x2 x3 x4 (ix2 r k)
      = hR (val_main_v9 (F := Ideal) x1) (val_main_v12 (F := Ideal) x1)
          (fun r k => x0 (ix2 r k)) (fun a b => x2 (ix2 a b)) (fun a => x3 (ix1 a)) (fun a b => x4 (ix2 a b)) r k := by
  rw [val_main_v29_apply, Ideal.maximumf_def, zero_call0, val_main_v28_apply, Ideal.addf_def, val_main_v26_apply,
    Ideal.addf_def, v23_apply, v25_apply, v27_apply]
  rfl

end Hidden

/-! ## The second layer -/

section Layer2
variable (x0 : FVec Ideal S50000x128 .f32) (x1 : IVec S2x600000 32) (x2 : FVec Ideal S128x128 .f32)
  (x3 : FVec Ideal S128 .f32) (x4 : FVec Ideal S128x128 .f32) (x5 : FVec Ideal S128x64 .f32)
  (x6 : FVec Ideal S64 .f32) (x7 : FVec Ideal S128x64 .f32)

/-- The gathered rows of the hidden layer. -/
theorem v36_apply (e : Fin 600000) (k : Fin 128) :
    val_main_v36 (F := Ideal) x0 x1 x2 x3 x4 (ix2 e k)
      = hR (val_main_v9 (F := Ideal) x1) (val_main_v12 (F := Ideal) x1)
          (fun r k => x0 (ix2 r k)) (fun a b => x2 (ix2 a b)) (fun a => x3 (ix1 a)) (fun a b => x4 (ix2 a b))
          (src (val_main_v9 (F := Ideal) x1) e) k := by
  unfold val_main_v36
  rw [host_gather_apply nodes_pos gather_S50000x128_S600000x1_S600000x128_1_0_n_n_0_1_1128
    gather_S50000x128_S600000x1_S600000x128_1_0_n_n_0_1_1128_wf rfl _ _ e k, v35_eq]
  exact v29_apply x0 x1 x2 x3 x4 _ k

/-- The accumulated rows of the hidden layer. -/
theorem v39_apply (r : Fin 50000) (k : Fin 128) :
    val_main_v39 (F := Ideal) x0 x1 x2 x3 x4 (ix2 r k)
      = agg (val_main_v9 (F := Ideal) x1) (val_main_v12 (F := Ideal) x1)
          (hR (val_main_v9 (F := Ideal) x1) (val_main_v12 (F := Ideal) x1)
            (fun r k => x0 (ix2 r k)) (fun a b => x2 (ix2 a b)) (fun a => x3 (ix1 a)) (fun a b => x4 (ix2 a b))) r k := by
  unfold val_main_v39 agg
  refine (host_rows_apply scatter_S50000x128_S600000x1_S600000x128_1_0_0_1
    scatter_S50000x128_S600000x1_S600000x128_1_0_0_1_wf rfl _ zero_v37 _ _ r k).trans ?_
  rw [v38_eq]
  exact Finset.sum_congr rfl fun e _ => v36_apply x0 x1 x2 x3 x4 e k

/-- The divisor column, computed a second time: the clamped in-degree. -/
theorem v45_apply (r : Fin 50000) :
    val_main_v45 (F := Ideal) x1 (ix1 r) = ((degree (val_main_v12 (F := Ideal) x1) r : ℝ) : EReal) := by
  rw [val_main_v45_apply, Ideal.maximumf_def, one_v44]
  unfold val_main_v43
  rw [host_count_apply scatter_S50000_S600000x1_S600000_n_0_0_1 scatter_S50000_S600000x1_S600000_n_0_0_1_wf rfl
    _ zero_v41 _ _ one_v40 r, v42_eq]
  exact max_count_one _ r

theorem v47_apply (r : Fin 50000) (k : Fin 128) :
    val_main_v47 (F := Ideal) x1 (ix2 r k) = ((degree (val_main_v12 (F := Ideal) x1) r : ℝ) : EReal) := by
  rw [val_main_v47_apply, val_main_v46_apply,
    show idx_main_v46 (idx_main_v47 (ix2 r k)) = ix1 r from
      funext fun a => Fin.ext (by match a with | ⟨0, _⟩ => rfl)]
  exact v45_apply x1 r

/-- The mean rows of the hidden layer projected by the first weight matrix of the second layer. -/
theorem v49_apply (r : Fin 50000) (j : Fin 64) :
    val_main_v49 (F := Ideal) x0 x1 x2 x3 x4 x5 (ix2 r j)
      = ∑ k : Fin 128,
          Ideal.div (agg (val_main_v9 (F := Ideal) x1) (val_main_v12 (F := Ideal) x1)
              (hR (val_main_v9 (F := Ideal) x1) (val_main_v12 (F := Ideal) x1)
                (fun r k => x0 (ix2 r k)) (fun a b => x2 (ix2 a b)) (fun a => x3 (ix1 a)) (fun a b => x4 (ix2 a b))) r k)
            ((degree (val_main_v12 (F := Ideal) x1) r : ℝ) : EReal) * x5 (ix2 k j) := by
  rw [val_main_v49_apply]
  refine Finset.sum_congr rfl fun k _ => ?_
  rw [show lidx_main_v49 (ix2 r j) k = ix2 r k from
      funext fun a => Fin.ext (by match a with | ⟨0, _⟩ => rfl | ⟨1, _⟩ => rfl),
    show ridx_main_v49 (ix2 r j) k = ix2 k j from
      funext fun a => Fin.ext (by match a with | ⟨0, _⟩ => rfl | ⟨1, _⟩ => rfl),
    val_main_v48_apply, Ideal.hostDivf_def, v39_apply, v47_apply]

/-- The second bias, broadcast along the rows. -/
theorem v51_apply (r : Fin 50000) (j : Fin 64) : val_main_v51 (F := Ideal) x6 (ix2 r j) = x6 (ix1 j) := by
  rw [val_main_v51_apply, val_main_v50_apply,
    show idx_main_v50 (idx_main_v51 (ix2 r j)) = ix1 j from
      funext fun a => Fin.ext (by match a with | ⟨0, _⟩ => rfl)]

/-- The hidden layer projected by the second weight matrix of the second layer. -/
theorem v53_apply (r : Fin 50000) (j : Fin 64) :
    val_main_v53 (F := Ideal) x0 x1 x2 x3 x4 x7 (ix2 r j)
      = ∑ k : Fin 128,
          hR (val_main_v9 (F := Ideal) x1) (val_main_v12 (F := Ideal) x1)
            (fun r k => x0 (ix2 r k)) (fun a b => x2 (ix2 a b)) (fun a => x3 (ix1 a)) (fun a b => x4 (ix2 a b)) r k
          * x7 (ix2 k j) := by
  rw [val_main_v53_apply]
  refine Finset.sum_congr rfl fun k _ => ?_
  rw [show lidx_main_v53 (ix2 r j) k = ix2 r k from
      funext fun a => Fin.ext (by match a with | ⟨0, _⟩ => rfl | ⟨1, _⟩ => rfl),
    show ridx_main_v53 (ix2 r j) k = ix2 k j from
      funext fun a => Fin.ext (by match a with | ⟨0, _⟩ => rfl | ⟨1, _⟩ => rfl),
    v29_apply]

/-- THE REFERENCE'S VALUE: element `(r, j)` of the program's result is the textbook two-layer expression `outR` of
    the program's arguments, with the two index columns the program computes from its edge list. -/
theorem ref_value (r : Fin 50000) (j : Fin 64) :
    val_main_v54 (F := Ideal) x0 x1 x2 x3 x4 x5 x6 x7 (ix2 r j)
      = Cert.Sage.outR (val_main_v9 (F := Ideal) x1) (val_main_v12 (F := Ideal) x1)
          (fun r k => x0 (ix2 r k)) (fun a b => x2 (ix2 a b)) (fun a => x3 (ix1 a)) (fun a b => x4 (ix2 a b))
          (fun a b => x5 (ix2 a b)) (fun a => x6 (ix1 a)) (fun a b => x7 (ix2 a b)) r j := by
  rw [val_main_v54_apply, Ideal.addf_def, val_main_v52_apply, Ideal.addf_def, v49_apply, v51_apply, v53_apply]
  rfl

end Layer2

end Cert.Sage.Ref

end
-- ==== Proof.Algebra.lean ====
/-
  The two arrangements of the two-layer mean-aggregation network agree on real inputs.

  Every input is a real number and the clamped in-degree is a real number at least one, so every intermediate
  value of either arrangement is (the image of) a real number. Dividing by a non-zero real `d` on the extended
  reals is multiplying by the real `1 / d`; pushing the inclusion of the reals outwards through the finite sums,
  the products, the sums and the maximum with zero turns both first layers into the inclusion of ONE real
  expression (they differ by the order of three summands), and both second layers into the inclusions of two real
  expressions which differ by the exchange of the sum over the landing edges with the sum over the 128 columns,
  the real factors `1 / degree r` and `w2l k j` moved across them.
  Distributivity fails on the extended reals in general; all the algebra below happens in the reals.
-/
import proofs.«107244_j42812234006861_2_alg».proof.Proof.Spec

noncomputable section

namespace Cert.Sage

open Idealize.ShloMosaic Idealize.ShloMosaic.ValueIdx Cert.ScatterGather Cert.GraphMean

/-! ## Real mirrors of the definitions -/

section Mirrors

variable (I1 I2 : EdgeIdx)

/-- The aggregate over the reals: the sum over the edges landing on `r` of column `k` of their source rows. -/
def aggRe {C : Nat} (X : Fin 50000 → Fin C → ℝ) (r : Fin 50000) (k : Fin C) : ℝ :=
  ∑ e ∈ landing I2 r, X (src I1 e) k

/-- The aggregate of real rows is the real aggregate. -/
theorem agg_coe {C : Nat} (X : Fin 50000 → Fin C → ℝ) (r : Fin 50000) (k : Fin C) :
    agg I1 I2 (fun r k => (X r k : EReal)) r k = ((aggRe I1 I2 X r k : ℝ) : EReal) := by
  unfold agg aggRe
  rw [coe_sum]

/-- The reciprocal of the clamped in-degree is the real `1 / degree`. -/
theorem invd_coe (r : Fin 50000) : invd I2 r = ((1 / degree I2 r : ℝ) : EReal) := by
  unfold invd
  rw [Ideal.div_coe (degree_ne_zero I2 r), one_mul]

/-- The maximum of a real and zero, on the extended reals, is the real maximum. -/
theorem max_coe_zero (a : ℝ) : max (a : EReal) 0 = ((max a 0 : ℝ) : EReal) := by
  rw [← EReal.coe_zero]
  exact (EReal.coe_strictMono.monotone.map_max).symm

variable (x : Fin 50000 → Fin 128 → ℝ) (w1l : Fin 128 → Fin 128 → ℝ) (b1 : Fin 128 → ℝ)
  (w1r : Fin 128 → Fin 128 → ℝ) (w2l : Fin 128 → Fin 64 → ℝ) (b2 : Fin 64 → ℝ) (w2r : Fin 128 → Fin 64 → ℝ)

/-- The first layer over the reals (reciprocal arrangement). -/
def hRe (r : Fin 50000) (k : Fin 128) : ℝ :=
  max (((∑ k' : Fin 128, (aggRe I1 I2 x r k' * (1 / degree I2 r)) * w1l k' k) + (∑ k' : Fin 128, x r k' * w1r k' k)) + b1 k) 0

/-- The first layer's output projected by W2l, over the reals. -/
def pRe (r : Fin 50000) (j : Fin 64) : ℝ := ∑ k : Fin 128, hRe I1 I2 x w1l b1 w1r r k * w2l k j

/-- The reciprocal arrangement of the first layer, on real inputs, is the real first layer. -/
theorem hK_coe (r : Fin 50000) (k : Fin 128) :
    hK I1 I2 (fun r k => (x r k : EReal)) (fun a b => (w1l a b : EReal)) (fun a => (b1 a : EReal))
        (fun a b => (w1r a b : EReal)) r k = ((hRe I1 I2 x w1l b1 w1r r k : ℝ) : EReal) := by
  unfold hK hRe
  simp only [agg_coe, invd_coe, ← EReal.coe_mul, ← coe_sum, ← EReal.coe_add]
  exact max_coe_zero _

/-- The quotient arrangement of the first layer, on real inputs, is the same real first layer. -/
theorem hR_coe (r : Fin 50000) (k : Fin 128) :
    hR I1 I2 (fun r k => (x r k : EReal)) (fun a b => (w1l a b : EReal)) (fun a => (b1 a : EReal))
        (fun a b => (w1r a b : EReal)) r k = ((hRe I1 I2 x w1l b1 w1r r k : ℝ) : EReal) := by
  unfold hR hRe
  simp only [agg_coe, Ideal.div_coe (degree_ne_zero I2 r), ← EReal.coe_mul, ← coe_sum, ← EReal.coe_add]
  rw [max_coe_zero]
  congr 2
  ring

/-- The projected first layer, on real inputs, is the real projected first layer. -/
theorem pK_coe (r : Fin 50000) (j : Fin 64) :
    pK I1 I2 (fun r k => (x r k : EReal)) (fun a b => (w1l a b : EReal)) (fun a => (b1 a : EReal))
        (fun a b => (w1r a b : EReal)) (fun a b => (w2l a b : EReal)) r j = ((pRe I1 I2 x w1l b1 w1r w2l r j : ℝ) : EReal) := by
  unfold pK pRe
  simp only [hK_coe, ← EReal.coe_mul, ← coe_sum]

/-- The project-then-aggregate second layer, on real inputs, as a real number. -/
theorem outK_coe (r : Fin 50000) (j : Fin 64) :
    outK I1 I2 (fun r k => (x r k : EReal)) (fun a b => (w1l a b : EReal)) (fun a => (b1 a : EReal))
        (fun a b => (w1r a b : EReal)) (fun a b => (w2l a b : EReal)) (fun a => (b2 a : EReal)) (fun a b => (w2r a b : EReal)) r j
      = (((((∑ k : Fin 128, hRe I1 I2 x w1l b1 w1r r k * w2r k j) + b2 j)
          + aggRe I1 I2 (pRe I1 I2 x w1l b1 w1r w2l) r j * (1 / degree I2 r) : ℝ)) : EReal) := by
  unfold outK
  have hp : pK I1 I2 (fun r k => (x r k : EReal)) (fun a b => (w1l a b : EReal)) (fun a => (b1 a : EReal))
        (fun a b => (w1r a b : EReal)) (fun a b => (w2l a b : EReal))
      = fun r j => ((pRe I1 I2 x w1l b1 w1r w2l r j : ℝ) : EReal) := by
    funext r j
    exact pK_coe I1 I2 x w1l b1 w1r w2l r j
  rw [hp]
  simp only [hK_coe, agg_coe, invd_coe, ← EReal.coe_mul, ← coe_sum, ← EReal.coe_add]

/-- The aggregate-then-project second layer, on real inputs, as a real number. -/
theorem outR_coe (r : Fin 50000) (j : Fin 64) :
    outR I1 I2 (fun r k => (x r k : EReal)) (fun a b => (w1l a b : EReal)) (fun a => (b1 a : EReal))
        (fun a b => (w1r a b : EReal)) (fun a b => (w2l a b : EReal)) (fun a => (b2 a : EReal)) (fun a b => (w2r a b : EReal)) r j
      = (((((∑ k : Fin 128, (aggRe I1 I2 (hRe I1 I2 x w1l b1 w1r) r k * (1 / degree I2 r)) * w2l k j) + b2 j)
          + (∑ k : Fin 128, hRe I1 I2 x w1l b1 w1r r k * w2r k j) : ℝ)) : EReal) := by
  unfold outR
  have hh : hR I1 I2 (fun r k => (x r k : EReal)) (fun a b => (w1l a b : EReal)) (fun a => (b1 a : EReal))
        (fun a b => (w1r a b : EReal))
      = fun r k => ((hRe I1 I2 x w1l b1 w1r r k : ℝ) : EReal) := by
    funext r k
    exact hR_coe I1 I2 x w1l b1 w1r r k
  rw [hh]
  simp only [agg_coe, Ideal.div_coe (degree_ne_zero I2 r), ← EReal.coe_mul, ← coe_sum, ← EReal.coe_add]

/-- The exchange of sums: aggregating the projected rows and scaling is scaling the aggregated rows and projecting. -/
theorem aggRe_project (r : Fin 50000) (j : Fin 64) :
    aggRe I1 I2 (pRe I1 I2 x w1l b1 w1r w2l) r j * (1 / degree I2 r)
      = ∑ k : Fin 128, (aggRe I1 I2 (hRe I1 I2 x w1l b1 w1r) r k * (1 / degree I2 r)) * w2l k j := by
  unfold aggRe pRe
  exact (real_law (landing I2 r) (fun e k => hRe I1 I2 x w1l b1 w1r (src I1 e) k) (fun k => w2l k j)
    (1 / degree I2 r)).symm

end Mirrors

/-- THE ALGEBRA. On real inputs the project-then-aggregate arrangement with the reciprocal of the degree and the
    textbook aggregate-then-project arrangement with the quotient by the degree are the same extended real. -/
theorem outK_eq_outR (I1 I2 : EdgeIdx) (x : Fin 50000 → Fin 128 → ℝ) (w1l : Fin 128 → Fin 128 → ℝ) (b1 : Fin 128 → ℝ)
    (w1r : Fin 128 → Fin 128 → ℝ) (w2l : Fin 128 → Fin 64 → ℝ) (b2 : Fin 64 → ℝ) (w2r : Fin 128 → Fin 64 → ℝ)
    (r : Fin 50000) (j : Fin 64) :
    outK I1 I2 (fun r k => (x r k : EReal)) (fun a b => (w1l a b : EReal)) (fun a => (b1 a : EReal))
        (fun a b => (w1r a b : EReal)) (fun a b => (w2l a b : EReal)) (fun a => (b2 a : EReal)) (fun a b => (w2r a b : EReal)) r j
      = outR I1 I2 (fun r k => (x r k : EReal)) (fun a b => (w1l a b : EReal)) (fun a => (b1 a : EReal))
        (fun a b => (w1r a b : EReal)) (fun a b => (w2l a b : EReal)) (fun a => (b2 a : EReal)) (fun a b => (w2r a b : EReal)) r j := by
  rw [outK_coe, outR_coe, aggRe_project]
  congr 1
  ring

end Cert.Sage

end
-- ==== Proof.Finite.lean ====
/-
  FINITENESS OUT OF THE PRECONDITION. The precondition computes, for each of the seven float arguments a, the bit
  "every element x of a has |x| < +∞" (an absolute value, a strict comparison against the broadcast pattern of +∞, a
  reduction by "and" over all axes from the bit 1) and the conjunction of the seven bits. If that conjunction is 1 then
  each of the seven bits is 1, so every element of every float argument has |x| < +∞ in the extended reals, and an
  extended real with |x| < +∞ is neither -∞ nor +∞: it is a real number. The integer argument is not constrained.
-/
import proofs.«107244_j42812234006861_2_alg».proof.Pre_finite_inputs
import Idealize.ShloMosaic.PureOps.Ideal
import Idealize.ShloMosaic.Lib.ReduceAll
import Idealize.ShloMosaic.Lib.ValueIdx

noncomputable section

namespace Cert.Sage.Finite

open Idealize.ShloMosaic

/-- The f32 pattern 0x7F800000 (sign 0, exponent all ones, fraction 0) denotes +∞. -/
theorem inf_bits : Ideal.ofBits .f32 0x7F800000#32 = (⊤ : EReal) := by
  simp [Ideal.ofBits, Ideal.ieee]

/-- A bit made from a Boolean is 1 exactly when the Boolean is true. -/
theorem ofBool_eq_one (b : Bool) : BitVec.ofBool b = 1#1 ↔ b = true := by cases b <;> decide

/-- An extended real x with max x (-x) < +∞ is a real: for x = -∞ the maximum is -(-∞) = +∞, for x = +∞ it is +∞,
    and +∞ < +∞ is false. -/
theorem real_of_abs_lt_top (x : EReal) (h : Ideal.cmp .olt (max x (-x)) (⊤ : EReal) = 1#1) :
    ∃ r : ℝ, x = ((r : ℝ) : EReal) := by
  unfold Ideal.cmp at h
  rw [ofBool_eq_one] at h
  induction x using EReal.rec with
  | bot => simp at h
  | coe r => exact ⟨r, rfl⟩
  | top => simp at h

/-- The rank-0 shape has one index. -/
instance : Subsingleton Cert.Pre_finite_inputs.S_.Idx := ⟨fun a b => funext fun d => d.elim0⟩

/-- One jnp.all(|a| < +∞), over an arbitrary shape: if the reduction by "and" of the bits |a i| < +∞ is 1 then every
    a i is a real, and the reals are chosen as one function of the index. -/
theorem real_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi
          (cmpf .olt (Host.absf a)
            (broadcastInDim S ![] hb (constant (F := Ideal) Cert.Pre_finite_inputs.S_ .f32 0x7F800000#32)))
          (constantI Cert.Pre_finite_inputs.S_ 1 1#1) hr hu ValueIdx.ix0 = 1#1) :
    ∃ r : S.Idx → ℝ, a = fun i => ((r i : ℝ) : EReal) := by
  have hall : ∀ i : S.Idx, ∃ r : ℝ, a i = ((r : ℝ) : EReal) := fun i => by
    have e := Host.reduce_andi_all _ _ hr hu ValueIdx.ix0 h i
    have e' : Ideal.cmp .olt (max (a i) (-(a i))) (Ideal.ofBits .f32 0x7F800000#32) = 1#1 := e
    rw [inf_bits] at e'
    exact real_of_abs_lt_top (a i) e'
  choose r hr' using hall
  exact ⟨r, funext hr'⟩

open Cert.Pre_finite_inputs in
/-- THE PRECONDITION DECODED: if the printed predicate answers 1 then every element of each of the seven float
    arguments is a real number. The predicate's one bit is the conjunction of seven bits, one per float argument,
    nested to the left in the order a0, a2, a3, a4, a5, a6, a7; each is 1, and each is a jnp.all(|a| < +∞). -/
theorem real_inputs [Cert.Pre_finite_inputs.Facts]
    (a0 : FVec Ideal Cert.Pre_finite_inputs.S50000x128 .f32) (a1 : IVec Cert.Pre_finite_inputs.S2x600000 32)
    (a2 : FVec Ideal Cert.Pre_finite_inputs.S128x128 .f32) (a3 : FVec Ideal Cert.Pre_finite_inputs.S128 .f32)
    (a4 : FVec Ideal Cert.Pre_finite_inputs.S128x128 .f32) (a5 : FVec Ideal Cert.Pre_finite_inputs.S128x64 .f32)
    (a6 : FVec Ideal Cert.Pre_finite_inputs.S64 .f32) (a7 : FVec Ideal Cert.Pre_finite_inputs.S128x64 .f32)
    (h : Cert.Pre_finite_inputs.fn (F := Ideal) a0 a1 a2 a3 a4 a5 a6 a7 = fun _ => 1#1) :
    (∃ r : Cert.Pre_finite_inputs.S50000x128.Idx → ℝ, a0 = fun i => ((r i : ℝ) : EReal))
    ∧ (∃ r : Cert.Pre_finite_inputs.S128x128.Idx → ℝ, a2 = fun i => ((r i : ℝ) : EReal))
    ∧ (∃ r : Cert.Pre_finite_inputs.S128.Idx → ℝ, a3 = fun i => ((r i : ℝ) : EReal))
    ∧ (∃ r : Cert.Pre_finite_inputs.S128x128.Idx → ℝ, a4 = fun i => ((r i : ℝ) : EReal))
    ∧ (∃ r : Cert.Pre_finite_inputs.S128x64.Idx → ℝ, a5 = fun i => ((r i : ℝ) : EReal))
    ∧ (∃ r : Cert.Pre_finite_inputs.S64.Idx → ℝ, a6 = fun i => ((r i : ℝ) : EReal))
    ∧ (∃ r : Cert.Pre_finite_inputs.S128x64.Idx → ℝ, a7 = fun i => ((r i : ℝ) : EReal)) := by
  have h0 := congrFun h ValueIdx.ix0
  dsimp only [Cert.Pre_finite_inputs.fn, Cert.Pre_finite_inputs.fn_part1] at h0
  simp only [andi, IntOp.andi_eq_one] at h0
  obtain ⟨⟨⟨⟨⟨⟨e0, e2⟩, e3⟩, e4⟩, e5⟩, e6⟩, e7⟩ := h0
  exact ⟨real_of_all a0 _ _ _ e0, real_of_all a2 _ _ _ e2, real_of_all a3 _ _ _ e3, real_of_all a4 _ _ _ e4,
    real_of_all a5 _ _ _ e5, real_of_all a6 _ _ _ e6, real_of_all a7 _ _ _ e7⟩

end Cert.Sage.Finite

end
-- ==== Proof.Bridge.lean ====
/-
  The reference's result is the kernel-side arrangement of the network, on finite inputs.

  The reference's run ends at `outR` of the arguments (read index by index off its operations); the kernel program's
  at `outK`. Both are stated over the same two index columns — the edge sources with a negative index wrapped, the
  edge targets — which the two programs compute by the same operations. Under the precondition every float argument
  holds real numbers, and on real arguments `outK = outR`.
-/
import proofs.«107244_j42812234006861_2_alg».proof.Proof.RefValue
import proofs.«107244_j42812234006861_2_alg».proof.Proof.Algebra
import proofs.«107244_j42812234006861_2_alg».proof.Proof.Finite
import proofs.«107244_j42812234006861_2_alg».proof.Proof.KHostDefs
import proofs.«107244_j42812234006861_2_alg».proof.Proof.Gen.KernelIdeal
import proofs.«107244_j42812234006861_2_alg».proof.Proof.Gen.ReferenceIdeal
import proofs.«107244_j42812234006861_2_alg».proof.Proof.Gen.Pre_finite_inputs

noncomputable section

namespace Cert.Sage.Bridge

open Idealize.ShloMosaic Idealize.ShloMosaic.ValueIdx

/-- The two programs compute the same source column … -/
theorem src_col (a1 : IVec Cert.ReferenceIdeal.S2x600000 32) :
    Cert.ReferenceIdeal.Read.val_main_v9 (F := Ideal) a1 = Cert.KernelIdeal.HostV.srcIdx a1 := rfl

/-- … and the same target column. -/
theorem dst_col (a1 : IVec Cert.ReferenceIdeal.S2x600000 32) :
    Cert.ReferenceIdeal.Read.val_main_v12 (F := Ideal) a1 = Cert.KernelIdeal.HostV.dstIdx a1 := rfl

/-- On finite inputs the reference's result, at every index, is `outK` of the arguments. -/
theorem ref_eq_outK (a0 : FVec Ideal Cert.ReferenceIdeal.S50000x128 .f32) (a1 : IVec Cert.ReferenceIdeal.S2x600000 32)
    (a2 : FVec Ideal Cert.ReferenceIdeal.S128x128 .f32) (a3 : FVec Ideal Cert.ReferenceIdeal.S128 .f32)
    (a4 : FVec Ideal Cert.ReferenceIdeal.S128x128 .f32) (a5 : FVec Ideal Cert.ReferenceIdeal.S128x64 .f32)
    (a6 : FVec Ideal Cert.ReferenceIdeal.S64 .f32) (a7 : FVec Ideal Cert.ReferenceIdeal.S128x64 .f32)
    (hfin : Cert.Pre_finite_inputs.fn (F := Ideal) a0 a1 a2 a3 a4 a5 a6 a7 = fun _ => 1#1)
    (i : Cert.ReferenceIdeal.S50000x64.Idx) :
    Cert.ReferenceIdeal.Read.val_main_v54 (F := Ideal) a0 a1 a2 a3 a4 a5 a6 a7 i
      = Cert.Sage.outK (Cert.KernelIdeal.HostV.srcIdx a1) (Cert.KernelIdeal.HostV.dstIdx a1)
          (fun r k => a0 (ix2 r k)) (fun a b => a2 (ix2 a b)) (fun a => a3 (ix1 a)) (fun a b => a4 (ix2 a b))
          (fun a b => a5 (ix2 a b)) (fun a => a6 (ix1 a)) (fun a b => a7 (ix2 a b)) (i 0) (i 1) := by
  obtain ⟨r, j, rfl⟩ : ∃ (r : Fin 50000) (j : Fin 64), i = ix2 r j := ⟨i 0, i 1, eq_ix2 i⟩
  rw [Cert.Sage.Ref.ref_value, src_col, dst_col]
  obtain ⟨⟨r0, rfl⟩, ⟨r2, rfl⟩, ⟨r3, rfl⟩, ⟨r4, rfl⟩, ⟨r5, rfl⟩, ⟨r6, rfl⟩, ⟨r7, rfl⟩⟩ :=
    Cert.Sage.Finite.real_inputs a0 a1 a2 a3 a4 a5 a6 a7 hfin
  exact (Cert.Sage.outK_eq_outR (Cert.KernelIdeal.HostV.srcIdx a1) (Cert.KernelIdeal.HostV.dstIdx a1)
    (fun r k => r0 (ix2 r k)) (fun a b => r2 (ix2 a b)) (fun a => r3 (ix1 a)) (fun a b => r4 (ix2 a b))
    (fun a b => r5 (ix2 a b)) (fun a => r6 (ix1 a)) (fun a b => r7 (ix2 a b)) r j).symm

end Cert.Sage.Bridge

end
-- ==== Proof.lean ====
/-
  A two-layer graph network with mean aggregation (gather along the edges' sources, accumulate along their targets,
  divide by the clamped in-degree), as two Pallas kernel regions among host operations, against its jnp reference.

  Over the extended reals the two programs are two arrangements of one network. The kernel program multiplies the
  aggregated rows by the reciprocal 1 / max(degree, 1) where the reference divides by max(degree, 1); it adds the
  two products of the first layer before the bias where the reference adds the bias first; and in the second layer it
  projects the hidden rows by W2l BEFORE gathering and accumulating them (64 columns instead of 128) where the
  reference aggregates the hidden rows and projects the mean. The first two differences are identities of the
  extended reals for a real non-zero divisor. The third is the exchange of two finite sums with the factors
  1 / degree and W2l[k,j] moved across them: it holds because the hidden array and the weights are real numbers, which
  the precondition (every float argument finite) provides. Changes of float format are the identity, a product on
  the matrix unit into zeros and the host's contraction are the same finite sum.

  The frames of the two kernel programs are the generated ones; the reference's is its generated run with the result
  dropped; no operation was rewritten by the idealization, so there is nothing to preserve.
-/
import proofs.«107244_j42812234006861_2_alg».proof.Defs
import proofs.«107244_j42812234006861_2_alg».proof.Proof.Gen.Kernel
import proofs.«107244_j42812234006861_2_alg».proof.Proof.Gen.Kernel.Frame
import proofs.«107244_j42812234006861_2_alg».proof.Proof.Gen.KernelIdeal
import proofs.«107244_j42812234006861_2_alg».proof.Proof.Gen.KernelIdeal.Frame
import proofs.«107244_j42812234006861_2_alg».proof.Proof.Gen.ReferenceIdeal
import proofs.«107244_j42812234006861_2_alg».proof.Proof.Gen.ReferenceIdeal.Run
import proofs.«107244_j42812234006861_2_alg».proof.Proof.Gen.ReferenceIdeal.Read
import proofs.«107244_j42812234006861_2_alg».proof.Proof.Gen.Pre_finite_inputs
import proofs.«107244_j42812234006861_2_alg».proof.Proof.KRun
import proofs.«107244_j42812234006861_2_alg».proof.Proof.KValue
import proofs.«107244_j42812234006861_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `outK` of the arguments: the kernel program's by reading its fold of
    buffer contents, the reference's by reading its operations and the law `outK = outR` on real arguments. -/
theorem algebraic : Cert.algebraic_KernelIdeal_ReferenceIdeal := by
  intro m ρ m' ρ' hpre hagree
  refine ⟨fun c => Cert.KernelIdeal.Val.out m c, ?_, ?_⟩
  · exact (θ_run Cert.KernelIdeal.defs _ _).mono
      (fun r h c => ⟨(h c).1.trans (Cert.KernelIdeal.Val.result_eq m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v54_eq]
    obtain ⟨h0, h1, h2, h3, h4, h5, h6, h7⟩ := hagree c
    rw [h0, h1, h2, h3, h4, h5, h6, h7]
    funext i
    exact Cert.Sage.Bridge.ref_eq_outK _ _ _ _ _ _ _ _ (hpre c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
